-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x512 : Shape := ⟨2, ![40000, 512]⟩
abbrev S2x640000 : Shape := ⟨2, ![2, 640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S40000x512 : S_.BroadcastsInDim S40000x512 (![] : Fin 0 → Fin S40000x512.rank)
  reducesTo_S40000x512_S_d0_1 : S40000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S128 .f32) (main_arg21 : FVec F S128x2 .f32) (main_arg22 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x2 .f32 := Host.absf main_arg21
  let main_cst_36 : FVec F S_ .f32 := constant S_ .f32 0x7F800000#32
  let main_v95 : FVec F S128x2 .f32 := broadcastInDim S128x2 ![] bcast_S_S128x2 main_cst_36
  let main_v96 : IVec S128x2 1 := cmpf .olt main_v94 main_v95
  let main_c_37 : IVec S_ 1 := constantI S_ 1 1#1
  let main_v97 : IVec S_ 1 := (fun x v => Host.reduce IntOp.andi x v reducesTo_S128x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S40000x512 .f32) (main_arg1 : IVec S2x640000 32) (main_arg2 : IVec S40000 32) (main_arg3 : FVec F S512x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) : IVec S_ 1 :=
  let main_v0 : FVec F S40000x512 .f32 := Host.absf main_arg0
  let main_cst : FVec F S_ .f32 := constant S_ .f32 0x7F800000#32
  let main_v1 : FVec F S40000x512 .f32 := broadcastInDim S40000x512 ![] bcast_S_S40000x512 main_cst
  let main_v2 : IVec S40000x512 1 := cmpf .olt main_v0 main_v1
  let main_c : IVec S_ 1 := constantI S_ 1 1#1
  let main_v3 : IVec S_ 1 := (fun x v => Host.reduce IntOp.andi x v reducesTo_S40000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S40000x512 : Shape := ⟨2, ![40000, 512]⟩
abbrev S2x640000 : Shape := ⟨2, ![2, 640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S40000x128 : Shape := ⟨2, ![40000, 128]⟩
abbrev S2000x512 : Shape := ⟨2, ![2000, 512]⟩
abbrev S2000x1 : Shape := ⟨2, ![2000, 1]⟩
abbrev S2000x128 : Shape := ⟨2, ![2000, 128]⟩
abbrev S640000x128 : Shape := ⟨2, ![640000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 104
  | .vmem => 48
  | .smem => 0
  | _ => 0

abbrev bufTy : (tb : Table) → Fin (tcTables nBuf tb) → BufTy
  | .hbm, ⟨0, _⟩ => ⟨S40000x512, .f32⟩
  | .hbm, ⟨1, _⟩ => ⟨S2x640000, .i32⟩
  | .hbm, ⟨2, _⟩ => ⟨S40000, .i32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x2, .f32⟩
  | .hbm, ⟨22, _⟩ => ⟨S2, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .bf16⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .bf16⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S40000x128, .bf16⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .bf16⟩
  | .hbm, ⟨63, _⟩ => ⟨S640000x128, .f32⟩
  | .hbm, ⟨64, _⟩ => ⟨S_, .f32⟩
  | .hbm, ⟨65, _⟩ => ⟨S40000x128, .f32⟩
  | .hbm, ⟨66, _⟩ => ⟨S640000x1, .i32⟩
  | .hbm, ⟨67, _⟩ => ⟨S40000x128, .f32⟩
  | .hbm, ⟨68, _⟩ => ⟨S40000x128, .bf16⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x128, .bf16⟩
  | .hbm, ⟨78, _⟩ => ⟨S640000x128, .f32⟩
  | .hbm, ⟨79, _⟩ => ⟨S_, .f32⟩
  | .hbm, ⟨80, _⟩ => ⟨S40000x128, .f32⟩
  | .hbm, ⟨81, _⟩ => ⟨S640000x1, .i32⟩
  | .hbm, ⟨82, _⟩ => ⟨S40000x128, .f32⟩
  | .hbm, ⟨83, _⟩ => ⟨S40000x128, .f32⟩
  | .hbm, ⟨84, _⟩ => ⟨S_, .f32⟩
  | .hbm, ⟨85, _⟩ => ⟨S64x128, .f32⟩
  | .hbm, ⟨86, _⟩ => ⟨S40000x1, .i32⟩
  | .hbm, ⟨87, _⟩ => ⟨S64x128, .f32⟩
  | .hbm, ⟨88, _⟩ => ⟨S_, .f32⟩
  | .hbm, ⟨89, _⟩ => ⟨S40000, .f32⟩
  | .hbm, ⟨90, _⟩ => ⟨S_, .f32⟩
  | .hbm, ⟨91, _⟩ => ⟨S64, .f32⟩
  | .hbm, ⟨92, _⟩ => ⟨S40000x1, .i32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x128, .f32⟩
  | .hbm, ⟨99, _⟩ => ⟨S64x128, .f32⟩
  | .hbm, ⟨100, _⟩ => ⟨S64x2, .f32⟩
  | .hbm, ⟨101, _⟩ => ⟨S1x2, .f32⟩
  | .hbm, ⟨102, _⟩ => ⟨S64x2, .f32⟩
  | .hbm, ⟨103, _⟩ => ⟨S64x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x1, .f32⟩
  | .local _ .vmem, ⟨12, _⟩ => ⟨S2000x1, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .bf16⟩
  | .local _ .vmem, ⟨24, _⟩ => ⟨S2000x128, .bf16⟩
  | .local _ .vmem, ⟨25, _⟩ => ⟨S2000x1, .f32⟩
  | .local _ .vmem, ⟨26, _⟩ => ⟨S2000x1, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128x128, .f32⟩
  | .local _ .vmem, ⟨33, _⟩ => ⟨S2000x128, .bf16⟩
  | .local _ .vmem, ⟨34, _⟩ => ⟨S2000x128, .bf16⟩
  | .local _ .vmem, ⟨35, _⟩ => ⟨S2000x128, .f32⟩
  | .local _ .vmem, ⟨36, _⟩ => ⟨S2000x128, .f32⟩
  | .local _ .vmem, ⟨37, _⟩ => ⟨S2000x128, .bf16⟩
  | .local _ .vmem, ⟨38, _⟩ => ⟨S2000x128, .bf16⟩
  | .local _ .vmem, ⟨39, _⟩ => ⟨S2000x1, .f32⟩
  | .local _ .vmem, ⟨40, _⟩ => ⟨S2000x1, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S2000x128, .f32⟩
  | .local _ .vmem, ⟨47, _⟩ => ⟨S2000x128, .f32⟩
  | _, _ => ⟨S40000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_7 : Ref sig .tc := ⟨.hbm, 69, rfl⟩
abbrev main_v37 : Ref sig .tc := ⟨.hbm, 70, rfl⟩
abbrev main_v38 : Ref sig .tc := ⟨.hbm, 71, rfl⟩
abbrev main_c_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S40000x128 : S_.BroadcastsInDim S40000x128 (![] : Fin 0 → Fin S40000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S640000x1_S640000_n_0_0_1_wf : ScatterDims.WF S40000 S640000x1 S640000 [] [0] [0] 1
  dot_S2000x512_S512x128_S2000x128_1_0_0_1_n_n_wf : DotDims.WF S2000x512 S512x128 S2000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S40000x512.size a
  hwx0_0 : ∀ i : grid0.Coords, EltTy.bits .f32 = 32 ∨ (Rect.block (s := S40000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S40000x1.size a
  hwx0_2 : ∀ i : grid0.Coords, EltTy.bits .f32 = 32 ∨ (Rect.block (s := S40000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S40000x128.size a
  hwx0_3 : ∀ i : grid0.Coords, EltTy.bits .bf16 = 32 ∨ (Rect.block (s := S40000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .bf16 = 32 ∨ (Rect.block (s := S40000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S40000x128.size a
  hwx1_9 : ∀ i : grid1.Coords, EltTy.bits .bf16 = 32 ∨ (Rect.block (s := S40000x128) S2000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .bf16 = 32 ∨ (Rect.block (s := S40000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S40000x1.size a
  hwx2_2 : ∀ i : grid2.Coords, EltTy.bits .f32 = 32 ∨ (Rect.block (s := S40000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S40000x128.size a
  hwx2_9 : ∀ i : grid2.Coords, EltTy.bits .bf16 = 32 ∨ (Rect.block (s := S40000x128) S2000x128.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S40000x128.size a
  hwx3_1 : ∀ i : grid3.Coords, EltTy.bits .bf16 = 32 ∨ (Rect.block (s := S40000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S40000x1.size a
  hwx3_2 : ∀ i : grid3.Coords, EltTy.bits .f32 = 32 ∨ (Rect.block (s := S40000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S40000x128.size a
  hwx3_8 : ∀ i : grid3.Coords, EltTy.bits .f32 = 32 ∨ (Rect.block (s := S40000x128) S2000x128.size (cc3_transform_8 i) (hinb3_8 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg20) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v48) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S40000x512 : Shape := ⟨2, ![40000, 512]⟩
abbrev S2x640000 : Shape := ⟨2, ![2, 640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x128 : Shape := ⟨2, ![40000, 128]⟩
abbrev S640000x128 : Shape := ⟨2, ![640000, 128]⟩
abbrev S40000x1 : Shape := ⟨2, ![40000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 206
  | .vmem => 0
  | .smem => 0
  | _ => 0

abbrev hbmTy0_0 (i : Nat) : BufTy := match i % 128 with
  | 0 => ⟨S40000x512, .f32⟩
  | 1 => ⟨S2x640000, .i32⟩
  | 2 => ⟨S40000, .i32⟩
  | 3 => ⟨S512x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x2, .f32⟩
  | 22 => ⟨S2, .f32⟩
  | 23 => ⟨S1x640000, .i32⟩
  | 24 => ⟨S640000, .i32⟩
  | 25 => ⟨S1x640000, .i32⟩
  | 26 => ⟨S640000, .i32⟩
  | 27 => ⟨S_, .f32⟩
  | 28 => ⟨S640000, .f32⟩
  | 29 => ⟨S_, .f32⟩
  | 30 => ⟨S40000, .f32⟩
  | 31 => ⟨S640000x1, .i32⟩
  | 32 => ⟨S40000, .f32⟩
  | 33 => ⟨S_, .f32⟩
  | 34 => ⟨S40000, .f32⟩
  | 35 => ⟨S40000, .f32⟩
  | 36 => ⟨S40000, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000, .f32⟩
  | 55 => ⟨S640000, .f32⟩
  | 56 => ⟨S40000, .f32⟩
  | 57 => ⟨S40000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x128, .f32⟩
  | 67 => ⟨S640000x1, .f32⟩
  | 68 => ⟨S640000x128, .f32⟩
  | 69 => ⟨S640000x128, .f32⟩
  | 70 => ⟨S_, .f32⟩
  | 71 => ⟨S40000x128, .f32⟩
  | 72 => ⟨S640000x1, .i32⟩
  | 73 => ⟨S40000x128, .f32⟩
  | 74 => ⟨S40000x1, .f32⟩
  | 75 => ⟨S40000x128, .f32⟩
  | 76 => ⟨S40000x128, .f32⟩
  | 77 => ⟨S40000x128, .f32⟩
  | 78 => ⟨S1x128, .f32⟩
  | 79 => ⟨S40000x128, .f32⟩
  | 80 => ⟨S40000x128, .f32⟩
  | 81 => ⟨S_, .f32⟩
  | 82 => ⟨S40000x128, .f32⟩
  | 83 => ⟨S40000x128, .f32⟩
  | 84 => ⟨S1x128, .f32⟩
  | 85 => ⟨S40000x128, .f32⟩
  | 86 => ⟨S40000x128, .f32⟩
  | 87 => ⟨S_, .f32⟩
  | 88 => ⟨S128, .f32⟩
  | 89 => ⟨S128, .f32⟩
  | 90 => ⟨S128, .f32⟩
  | 91 => ⟨S1x128, .f32⟩
  | 92 => ⟨S40000x128, .f32⟩
  | 93 => ⟨S40000x128, .f32⟩
  | 94 => ⟨S1x128, .f32⟩
  | 95 => ⟨S40000x128, .f32⟩
  | 96 => ⟨S40000x128, .f32⟩
  | 97 => ⟨S1x128, .f32⟩
  | 98 => ⟨S40000x128, .f32⟩
  | 99 => ⟨S40000x128, .f32⟩
  | 100 => ⟨S40000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S640000x1, .f32⟩
  | 111 => ⟨S640000x128, .f32⟩
  | 112 => ⟨S640000x128, .f32⟩
  | 113 => ⟨S_, .f32⟩
  | 114 => ⟨S40000x128, .f32⟩
  | 115 => ⟨S640000x1, .i32⟩
  | 116 => ⟨S40000x128, .f32⟩
  | 117 => ⟨S40000x1, .f32⟩
  | 118 => ⟨S40000x128, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S1x128, .f32⟩
  | _ => ⟨S40000x512, .f32⟩

abbrev hbmTy0_1 (i : Nat) : BufTy := match i % 128 with
  | 0 => ⟨S40000x128, .f32⟩
  | 1 => ⟨S40000x128, .f32⟩
  | 2 => ⟨S_, .f32⟩
  | 3 => ⟨S128, .f32⟩
  | 4 => ⟨S128, .f32⟩
  | 5 => ⟨S128, .f32⟩
  | 6 => ⟨S1x128, .f32⟩
  | 7 => ⟨S40000x128, .f32⟩
  | 8 => ⟨S40000x128, .f32⟩
  | 9 => ⟨S1x128, .f32⟩
  | 10 => ⟨S40000x128, .f32⟩
  | 11 => ⟨S40000x128, .f32⟩
  | 12 => ⟨S1x128, .f32⟩
  | 13 => ⟨S40000x128, .f32⟩
  | 14 => ⟨S40000x128, .f32⟩
  | 15 => ⟨S40000x128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S640000x1, .f32⟩
  | 26 => ⟨S640000x128, .f32⟩
  | 27 => ⟨S640000x128, .f32⟩
  | 28 => ⟨S_, .f32⟩
  | 29 => ⟨S40000x128, .f32⟩
  | 30 => ⟨S640000x1, .i32⟩
  | 31 => ⟨S40000x128, .f32⟩
  | 32 => ⟨S40000x1, .f32⟩
  | 33 => ⟨S40000x128, .f32⟩
  | 34 => ⟨S40000x128, .f32⟩
  | 35 => ⟨S40000x128, .f32⟩
  | 36 => ⟨S1x128, .f32⟩
  | 37 => ⟨S40000x128, .f32⟩
  | 38 => ⟨S40000x128, .f32⟩
  | 39 => ⟨S_, .f32⟩
  | 40 => ⟨S40000x128, .f32⟩
  | 41 => ⟨S40000x128, .f32⟩
  | 42 => ⟨S1x128, .f32⟩
  | 43 => ⟨S40000x128, .f32⟩
  | 44 => ⟨S40000x128, .f32⟩
  | 45 => ⟨S_, .f32⟩
  | 46 => ⟨S128, .f32⟩
  | 47 => ⟨S128, .f32⟩
  | 48 => ⟨S128, .f32⟩
  | 49 => ⟨S1x128, .f32⟩
  | 50 => ⟨S40000x128, .f32⟩
  | 51 => ⟨S40000x128, .f32⟩
  | 52 => ⟨S1x128, .f32⟩
  | 53 => ⟨S40000x128, .f32⟩
  | 54 => ⟨S40000x128, .f32⟩
  | 55 => ⟨S1x128, .f32⟩
  | 56 => ⟨S40000x128, .f32⟩
  | 57 => ⟨S40000x128, .f32⟩
  | 58 => ⟨S_, .f32⟩
  | 59 => ⟨S64x128, .f32⟩
  | 60 => ⟨S40000x1, .i32⟩
  | 61 => ⟨S64x128, .f32⟩
  | 62 => ⟨S_, .f32⟩
  | 63 => ⟨S40000, .f32⟩
  | 64 => ⟨S_, .f32⟩
  | 65 => ⟨S64, .f32⟩
  | 66 => ⟨S40000x1, .i32⟩
  | 67 => ⟨S64, .f32⟩
  | 68 => ⟨S_, .f32⟩
  | 69 => ⟨S64, .f32⟩
  | 70 => ⟨S64, .f32⟩
  | 71 => ⟨S64x1, .f32⟩
  | 72 => ⟨S64x128, .f32⟩
  | 73 => ⟨S64x128, .f32⟩
  | 74 => ⟨S64x2, .f32⟩
  | 75 => ⟨S1x2, .f32⟩
  | 76 => ⟨S64x2, .f32⟩
  | 77 => ⟨S64x2, .f32⟩
  | _ => ⟨S40000x512, .f32⟩

abbrev hbmTy (i : Nat) : BufTy := match i / 128 with
  | 0 => hbmTy0_0 i
  | 1 => hbmTy0_1 i
  | _ => ⟨S40000x512, .f32⟩

abbrev bufTy : (tb : Table) → Fin (tcTables nBuf tb) → BufTy
  | .hbm, ⟨i, _⟩ => hbmTy i
  | _, _ => ⟨S40000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_5 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call0_cst : Ref sig .tc := ⟨.hbm, 81, rfl⟩
abbrev main_call0_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_8 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_c_10 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_11 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call1_cst : Ref sig .tc := ⟨.hbm, 124, rfl⟩
abbrev main_call1_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_12 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_13 : Ref sig .tc := ⟨.hbm, 144, rfl⟩
abbrev main_v102 : Ref sig .tc := ⟨.hbm, 145, rfl⟩
abbrev main_v103 : Ref sig .tc := ⟨.hbm, 146, rfl⟩
abbrev main_c_14 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_15 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_call2_cst : Ref sig .tc := ⟨.hbm, 167, rfl⟩
abbrev main_call2_v0 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_16 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_17 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_18 : Ref sig .tc := ⟨.hbm, 190, rfl⟩
abbrev main_v141 : Ref sig .tc := ⟨.hbm, 191, rfl⟩
abbrev main_cst_19 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_20 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S40000x512_S512x128_S40000x128_1_0_0_1_n_n_wf : DotDims.WF S40000x512 S512x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x2_S64x2_1_0_0_1_n_n_wf : DotDims.WF S64x128 S128x2 S64x2 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S40000x512_S512x128_S40000x128_1_0_0_1_n_n : DotDims S40000x512 S512x128 S40000x128 where
  lhsContracting := [1]
  rhsContracting := [0]
  lhsNonContracting := [0]
  rhsNonContracting := [1]
  lhsBatch := []
  rhsBatch := []
  wf := dot_S40000x512_S512x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.RunResult.lean ====
/-
  The idealized kernel program's run with its result array named.

  Every weakly fair execution of the program's nine segments — five stretches of host operations around four kernel
  launches — terminates without a fault; in the final state every buffer that outlives the call holds what the fold of
  the segments over the launch memory leaves there. Read at the result buffer that gives the returned array, and
  read at the argument buffers it gives back the launch contents.
-/
import proofs.«120343_j70858370450156_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c)⟩)

end Cert.KernelIdeal.Val

end
-- ==== Proof.Walk.lean ====
/-
  Which buffers a stretch of host operations and a kernel launch leave alone.

  Every buffer of the program is written once. A launch argument therefore still holds its launch contents at
  each kernel launch that reads it, and an intermediate array (the edge endpoints, the inverse-root degrees, a
  layer's scaled product) still holds, at every later launch or host stretch that reads it, what the operation
  that produced it left there: no later host operation writes it, and a kernel launch writes only its output window.
-/
import proofs.«120343_j70858370450156_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The launch arguments, at the launch or host stretch that reads them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W7_main_arg18 (c : Dev nD) : W7 m ρ c (Proc.devRef .tc main_arg18) = m ((c : Thread nD τ).loc main_arg18) :=
  calc W7 m ρ c (Proc.devRef .tc main_arg18)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W7_main_arg20 (c : Dev nD) : W7 m ρ c (Proc.devRef .tc main_arg20) = m ((c : Thread nD τ).loc main_arg20) :=
  calc W7 m ρ c (Proc.devRef .tc main_arg20)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-! ## The inverse-root degrees (written before the first launch, an input window of every launch) -/

theorem W3_v11 (c : Dev nD) : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

theorem W5_v11 (c : Dev nD) : W5 m ρ c (Proc.devRef .tc main_v11) = W1 m ρ c (Proc.devRef .tc main_v11) :=
  calc W5 m ρ c (Proc.devRef .tc main_v11)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

theorem W7_v11 (c : Dev nD) : W7 m ρ c (Proc.devRef .tc main_v11) = W1 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := (W6_arr m ρ c 2).trans (((dat2 (V5 m ρ) c).arrAt_in 2 rfl _).trans (A_eq2 (V5 m ρ) c 2))
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-! ## The edges' endpoints (written before the first launch, read by every gather and scatter) -/

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-! ## A layer's scaled product, from the launch that wrote it to the next launch, which reads it again -/

theorem W3_v12 (c : Dev nD) : W3 m ρ c (Proc.devRef .tc main_v12) = W2 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v24 (c : Dev nD) : W5 m ρ c (Proc.devRef .tc main_v24) = W4 m ρ c (Proc.devRef .tc main_v24) :=
  calc W5 m ρ c (Proc.devRef .tc main_v24)
    _ = W4 m ρ c (Proc.devRef .tc main_v24) := StableHlo.after_of_forall_not_mem (b := Proc.devRef .tc main_v24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_v36 (c : Dev nD) : W7 m ρ c (Proc.devRef .tc main_v36) = W6 m ρ c (Proc.devRef .tc main_v36) :=
  calc W7 m ρ c (Proc.devRef .tc main_v36)
    _ = W6 m ρ c (Proc.devRef .tc main_v36) := StableHlo.after_of_forall_not_mem (b := Proc.devRef .tc main_v36) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Val

end
-- ==== Proof.Host.lean ====
/-
  What the host operations between the kernel launches compute, as functions of the buffers they read.

  Before the first launch: the two rows of the edge list (sources, destinations), the degree of every node (one
  plus the number of edges that end in it) and its inverse square root, laid as a column. Between launches: the
  rows of the last scaled product gathered at the edges' sources and summed into the rows named by the edges'
  destinations. After the last launch: the nodes' rows summed per graph, divided by the graphs' sizes, and the
  final affine map. Each is read back from the fold of the stretch's operations over ANY buffer contents.
-/
import proofs.«120343_j70858370450156_2_alg».proof.Proof.Gen.KernelIdeal.Frame
import Idealize.ShloMosaic.Lib.StableHlo.Run
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.StableHlo

/-- The edges' sources: row 0 of the edge list. -/
def srcOf (x1 : IVec S2x640000 32) : IVec S640000 32 :=
  shapeCast S640000 (extractStridedSlice S1x640000 ![0, 0] x1 slices_S2x640000_S1x640000_0_0) shapeCasts_S1x640000_S640000

/-- The edges' destinations: row 1 of the edge list. -/
def dstOf (x1 : IVec S2x640000 32) : IVec S640000 32 :=
  shapeCast S640000 (extractStridedSlice S1x640000 ![1, 0] x1 slices_S2x640000_S1x640000_1_0) shapeCasts_S1x640000_S640000

/-- The destinations as the column of row words a scatter takes. -/
def dstCol (dst : IVec S640000 32) : IVec S640000x1 32 :=
  broadcastInDim S640000x1 ![0] bcast_S640000_S640000x1_0 dst

/-- The sources as the column of row words a gather takes, a negative word counted from the end. -/
def srcCol (src : IVec S640000 32) : IVec S640000x1 32 :=
  broadcastInDim S640000x1 ![0] bcast_S640000_S640000x1_0
    (select (cmpi CmpIPredicate.slt src (broadcastInDim S640000 ![] bcast_S_S640000 (constantI S_ 32 0#32)))
      (addi src (broadcastInDim S640000 ![] bcast_S_S640000 (constantI S_ 32 40000#32))) src)

/-- The inverse square root of every node's degree (one plus the edges ending in it). -/
def dinvOf (x1 : IVec S2x640000 32) : FVec Ideal S40000 .f32 :=
  Host.rsqrt (F := Ideal)
    (addf
      (Host.scatterAdd (F := Ideal) scatter_S40000_S640000x1_S640000_n_0_0_1
        (broadcastInDim S40000 ![] bcast_S_S40000 (constant (F := Ideal) S_ FTy.f32 0#32))
        (dstCol (dstOf x1))
        (broadcastInDim S640000 ![] bcast_S_S640000 (constant (F := Ideal) S_ FTy.f32 1065353216#32)))
      (broadcastInDim S40000 ![] bcast_S_S40000 (constant (F := Ideal) S_ FTy.f32 1065353216#32)))

/-- The inverse roots as the column the kernels read. -/
def dinvColOf (x1 : IVec S2x640000 32) : FVec Ideal S40000x1 .f32 :=
  shapeCast S40000x1 (dinvOf x1) shapeCasts_S40000_S40000x1

/-- The rows of a scaled product gathered at the sources and summed at the destinations. -/
def aggOf (hws : FVec Ideal S40000x128 .bf16) (src dst : IVec S640000 32) : FVec Ideal S40000x128 .f32 :=
  Host.scatterAdd (F := Ideal) scatter_S40000x128_S640000x1_S640000x128_1_0_0_1
    (broadcastInDim S40000x128 ![] bcast_S_S40000x128 (constant (F := Ideal) S_ FTy.f32 0#32))
    (dstCol dst)
    (extf FTy.f32 (Host.gather gather_S40000x128_S640000x1_S640000x128_1_0_n_n_0_1_1128 hws (srcCol src)) bitsLt_bf16_f32)

/-- The readout: per-graph means of the nodes' rows, then the affine classifier. -/
def tailOf (h : FVec Ideal S40000x128 .f32) (x2 : IVec S40000 32) (x21 : FVec Ideal S128x2 .f32) (x22 : FVec Ideal S2 .f32) :
    FVec Ideal S64x2 .f32 :=
  addf
    (Host.dotGeneral dot_S64x128_S128x2_S64x2_1_0_0_1_n_n none
      (Host.divf (F := Ideal)
        (Host.scatterAdd (F := Ideal) scatter_S64x128_S40000x1_S40000x128_1_0_0_1
          (broadcastInDim S64x128 ![] bcast_S_S64x128 (constant (F := Ideal) S_ FTy.f32 0#32))
          (broadcastInDim S40000x1 ![0] bcast_S40000_S40000x1_0 x2)
          h)
        (broadcastInDim S64x128 ![0, 1] bcast_S64x1_S64x128_0_1
          (broadcastInDim S64x1 ![0] bcast_S64_S64x1_0
            (maximumf
              (Host.scatterAdd (F := Ideal) scatter_S64_S40000x1_S40000_n_0_0_1
                (broadcastInDim S64 ![] bcast_S_S64 (constant (F := Ideal) S_ FTy.f32 0#32))
                (broadcastInDim S40000x1 ![0] bcast_S40000_S40000x1_0 x2)
                (broadcastInDim S40000 ![] bcast_S_S40000 (constant (F := Ideal) S_ FTy.f32 1065353216#32)))
              (broadcastInDim S64 ![] bcast_S_S64 (constant (F := Ideal) S_ FTy.f32 1065353216#32))))))
      x21)
    (broadcastInDim S64x2 ![0, 1] bcast_S1x2_S64x2_0_1 (broadcastInDim S1x2 ![1] bcast_S2_S1x2_1 x22))

variable (W : Valuation τ sig (Elt Ideal))

/-! ## The first stretch -/

theorem host0_v1 : (StableHlo.after hostOps0 W (Proc.devRef .tc main_v1) : IVec S640000 32) = srcOf (W (Proc.devRef .tc main_arg1)) := by
  after_results; rfl

theorem host0_v3 : (StableHlo.after hostOps0 W (Proc.devRef .tc main_v3) : IVec S640000 32) = dstOf (W (Proc.devRef .tc main_arg1)) := by
  after_results; rfl

theorem host0_v11 : (StableHlo.after hostOps0 W (Proc.devRef .tc main_v11) : FVec Ideal S40000x1 .f32) = dinvColOf (W (Proc.devRef .tc main_arg1)) := by
  after_results; rfl

/-! ## The stretches between launches -/

set_option maxHeartbeats 4000000 in
theorem host1_v23 : (StableHlo.after hostOps1 W (Proc.devRef .tc main_v23) : FVec Ideal S40000x128 .f32)
    = aggOf (W (Proc.devRef .tc main_v12)) (W (Proc.devRef .tc main_v1)) (W (Proc.devRef .tc main_v3)) := by
  after_results_simp; rfl

set_option maxHeartbeats 4000000 in
theorem host2_v35 : (StableHlo.after hostOps2 W (Proc.devRef .tc main_v35) : FVec Ideal S40000x128 .f32)
    = aggOf (W (Proc.devRef .tc main_v24)) (W (Proc.devRef .tc main_v1)) (W (Proc.devRef .tc main_v3)) := by
  after_results_simp; rfl

set_option maxHeartbeats 4000000 in
theorem host3_v47 : (StableHlo.after hostOps3 W (Proc.devRef .tc main_v47) : FVec Ideal S40000x128 .f32)
    = aggOf (W (Proc.devRef .tc main_v36)) (W (Proc.devRef .tc main_v1)) (W (Proc.devRef .tc main_v3)) := by
  after_results_simp; rfl

/-! ## The last stretch -/

set_option maxHeartbeats 4000000 in
theorem host4_v64 : (StableHlo.after hostOps4 W (Proc.devRef .tc main_v64) : FVec Ideal S64x2 .f32)
    = tailOf (W (Proc.devRef .tc main_v48)) (W (Proc.devRef .tc main_arg2)) (W (Proc.devRef .tc main_arg21)) (W (Proc.devRef .tc main_arg22)) := by
  after_results_simp; rfl

end Cert.KernelIdeal.Val

end
-- ==== Proof.Spec.lean ====
/-
  The graph network's building blocks as functions of whole arrays of extended reals, entry by entry.

  A layer multiplies the node features by a weight matrix, scales row n of the product by d n (the inverse
  square root of node n's degree), and the layer after it adds to each row the rows of the scaled product
  gathered along the edges that end in n, scales by d n again, adds the bias, rectifies, and normalises each
  column with the stored mean and variance.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The variance offset of the normalisation, as the programs spell it. -/
abbrev epsBN : EReal := Ideal.ofBits .f32 0x3727C5AC#32
/-- The rectifier's threshold, as the programs spell it. -/
abbrev zeroF : EReal := Ideal.ofBits .f32 0x00000000#32

/-- Rectify, then normalise with mean m, variance v, scale g and shift be. -/
def act (pre m v g be : EReal) : EReal := ((max pre zeroF - m) * Ideal.rsqrt (v + epsBN)) * g + be

/-- Entry (n, j) of the first layer's product x W, row n scaled by d n. -/
def scaledProductC (x : Mat 40000 512) (W : Mat 512 128) (d : Mat 40000 1) (n : Fin 40000) (j : Fin 128) : EReal :=
  (∑ k : Fin 512, x (ix2 n k) * W (ix2 k j)) * d (ix2 n (0 : Fin 1))

/-- The first layer's scaled product as an array. -/
def scaledProduct (x : Mat 40000 512) (W : Mat 512 128) (d : Mat 40000 1) : Mat 40000 128 :=
  fun i => scaledProductC x W d (i 0) (i 1)

theorem scaledProduct_ix2 (x : Mat 40000 512) (W : Mat 512 128) (d : Mat 40000 1) (n : Fin 40000) (j : Fin 128) :
    scaledProduct x W d (ix2 n j) = scaledProductC x W d n j := rfl

/-- Entry (n, j) of a layer's activations from the gathered sums agg and the scaled product hws of that layer:
    d n (agg + hws) + b, rectified and normalised. -/
def epilogueC (agg hws : Mat 40000 128) (d : Mat 40000 1) (b g be m v : Row 128) (n : Fin 40000) (j : Fin 128) : EReal :=
  act (d (ix2 n (0 : Fin 1)) * (agg (ix2 n j) + hws (ix2 n j)) + b (ix1 j)) (m (ix1 j)) (v (ix1 j)) (g (ix1 j)) (be (ix1 j))

/-- A layer's activations as an array. -/
def epilogue (agg hws : Mat 40000 128) (d : Mat 40000 1) (b g be m v : Row 128) : Mat 40000 128 :=
  fun i => epilogueC agg hws d b g be m v (i 0) (i 1)

theorem epilogue_ix2 (agg hws : Mat 40000 128) (d : Mat 40000 1) (b g be m v : Row 128) (n : Fin 40000) (j : Fin 128) :
    epilogue agg hws d b g be m v (ix2 n j) = epilogueC agg hws d b g be m v n j := rfl

/-- Entry (n, j) of the next layer's scaled product: the activations times W, row n scaled by d n. -/
def fusedC (agg hws : Mat 40000 128) (d : Mat 40000 1) (b g be m v : Row 128) (W : Mat 128 128)
    (n : Fin 40000) (j : Fin 128) : EReal :=
  (∑ k : Fin 128, epilogueC agg hws d b g be m v n k * W (ix2 k j)) * d (ix2 n (0 : Fin 1))

/-- The next layer's scaled product as an array. -/
def fused (agg hws : Mat 40000 128) (d : Mat 40000 1) (b g be m v : Row 128) (W : Mat 128 128) : Mat 40000 128 :=
  fun i => fusedC agg hws d b g be m v W (i 0) (i 1)

theorem fused_ix2 (agg hws : Mat 40000 128) (d : Mat 40000 1) (b g be m v : Row 128) (W : Mat 128 128)
    (n : Fin 40000) (j : Fin 128) :
    fused agg hws d b g be m v W (ix2 n j) = fusedC agg hws d b g be m v W n j := rfl

end Cert.Gcn

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.Region0.lean ====
/-
  Region 0 as a whole array. Each of the 20 grid points multiplies a block of 2000 rows of the feature array by the
  whole 512 x 128 weight matrix and scales row p of the product by the scale of that row; the point's result is rows
  2000 t ... 2000 t + 1999 of the result array. Entry by entry this is the first layer's scaled product of the
  specification, and the 20 blocks tile the 40000 rows, so the array the region leaves is that function of the three
  arrays it reads.
-/
import proofs.«120343_j70858370450156_2_alg».proof.Proof.Gen.KernelIdeal.Frame
import proofs.«120343_j70858370450156_2_alg».proof.Proof.Spec
import proofs.«120343_j70858370450156_2_alg».proof.Proof.LibPlainDot
import proofs.«120343_j70858370450156_2_alg».proof.Proof.LibColumn
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Cert.Gcn

variable (V : (c : Dev nD) → (b : Ref sig .tc) → Buf (Elt Ideal) ((c : Thread nD τ).loc b))

namespace R0

/-- The rectangles of the body's loads and store start at the origin. -/
theorem hz : (![0, 0] : Fin 2 → Nat) = fun _ => 0 := funext fun a => by fin_cases a <;> rfl

/-- The body's payload at row p and column q of a block: the product of row p of the feature block with column q of the
    weights, summed over the 512 inner coordinates, times the scale of row p (the format changes are the identity on
    extended reals). -/
theorem pay_apply (x0 : Vec Ideal S2000x512 .f32) (x1 : Vec Ideal S512x128 .f32) (x2 : Vec Ideal S2000x1 .f32)
    (p : Fin 2000) (q : Fin 128) :
    k0_pay1 x0 x1 x2 (ix2 p q) = (∑ k : Fin 512, x0 (ix2 p k) * x1 (ix2 k q)) * x2 (ix2 p (0 : Fin 1)) := by
  unfold k0_pay1
  rw [truncf_apply, mulf_apply]
  rw [show dot_S2000x512_S512x128_S2000x128_1_0_0_1_n_n = DotDims.plain 2000 512 128 from rfl]
  rw [PlainDot.matmul_zero_apply, ColumnLayout.broadcastTo_a1_ab_apply, shapeCast_self]
  rfl

/-- The block indices over the 20 grid points: the row-tiled windows (features, scales, result) are at block t of their
    first axis, the weights at block 0; every window is at block 0 of its second axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is a row of the array. -/
theorem row_lt (t : Fin cfg0.N) (p : Fin 2000) : t.val * 2000 + p.val < 40000 := by
  have ht : t.val < 20 := lt_of_lt_of_eq t.isLt N_0
  have hp := p.isLt
  omega

/-- Entry (p, k) of the feature block at point t is entry (2000 t + p, k) of the feature array. -/
theorem read_x (c : Dev nD) (t : Fin cfg0.N) (p : Fin 2000) (k : Fin 512) :
    iblk0 V c 0 t (ix2 p k) = V c main_arg0 (ix2 ⟨t.val * 2000 + p.val, row_lt t p⟩ k) := by
  obtain ⟨e0, e1, -⟩ := idx_facts t
  show V c main_arg0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- The weights' block at every point is the whole weight matrix. -/
theorem read_w (c : Dev nD) (t : Fin cfg0.N) (k : Fin 512) (q : Fin 128) :
    iblk0 V c 1 t (ix2 k q) = V c main_arg3 (ix2 k q) := by
  obtain ⟨-, -, e2, e3, -⟩ := idx_facts t
  show V c main_arg3 (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- Entry (p, 0) of the scale block at point t is entry (2000 t + p, 0) of the scale column. -/
theorem read_d (c : Dev nD) (t : Fin cfg0.N) (p : Fin 2000) :
    iblk0 V c 2 t (ix2 p (0 : Fin 1)) = V c main_v11 (ix2 ⟨t.val * 2000 + p.val, row_lt t p⟩ (0 : Fin 1)) := by
  obtain ⟨-, -, -, -, e4, e5, -⟩ := idx_facts t
  show V c main_v11 (((cfg0.win 2).blk t).view.emb (ix2 p (0 : Fin 1))) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

/-- Entry (p, q) of the result's block at point t sits at (2000 t + p, q) of the result array. -/
theorem emb_out (t : Fin cfg0.N) (p : Fin 2000) (q : Fin 128) :
    (((cfg0.win 3).blk t).view.emb (ix2 p q) : S40000x128.Idx) = ix2 ⟨t.val * 2000 + p.val, row_lt t p⟩ q := by
  obtain ⟨-, -, -, -, -, -, e6, e7⟩ := idx_facts t
  refine funext fun a => Fin.ext ?_
  match a with
  | ⟨0, _⟩ => show win0_3.index t (0 : Fin 2) * 2000 + 1 * p.val = t.val * 2000 + p.val; omega
  | ⟨1, _⟩ => show win0_3.index t (1 : Fin 2) * 128 + 1 * q.val = q.val; omega

/-- What point t writes back is block t of the scaled product of the arrays as the region finds them. -/
theorem flushed_eq (c : Dev nD) (t : Fin cfg0.N) :
    (dat0 (F := Ideal) V c).flushed 3 t
      = ((cfg0.win 3).blk t).view.read (Elt Ideal) (scaledProduct (V c main_arg0) (V c main_arg3) (V c main_v11)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz, View.ld_unit_zero (S := S2000x1) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q)
    = scaledProduct (V c main_arg0) (V c main_arg3) (V c main_v11) (((cfg0.win 3).blk t).view.emb (ix2 p q))
  rw [emb_out t p q, scaledProduct_ix2]
  refine (pay_apply _ _ _ p q).trans ?_
  exact congrArg₂ (· * ·)
    (Finset.sum_congr rfl fun k _ => congrArg₂ (· * ·) (read_x V c t p k) (read_w V c t k q)) (read_d V c t p)

/-- An index of the result array is in point t's block iff each coordinate is in the block's range on its axis. -/
theorem mem_blk (t : Fin cfg0.N) (i : S40000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v12).slice (win0_3.rect t)).set ↔ _
  rw [View.set_slice_whole, Rect.mem_set_unit]
  exact Iff.rfl

/-- Row r of the result array is in the block of point r / 2000: the 20 blocks of 2000 rows tile the 40000 rows. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have ht : (i 0).val / 2000 < cfg0.N := by
    show (i 0).val / 2000 < grid0.N
    rw [N_0]; omega
  obtain ⟨-, -, -, -, -, -, e6, e7⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e7]; omega

end R0

/-- The result array of region 0 after its 20 points: the scaled product of the feature array, the weights and the
    scale column, as the region finds them. -/
theorem final0 (c : Dev nD) :
    ((dat0 (F := Ideal) V c).arrAt 3 cfg0.N : Mat 40000 128)
      = scaledProduct (V c main_arg0) (V c main_arg3) (V c main_v11) :=
  (dat0 (F := Ideal) V c).arrAt_eq_of_cover 3 _ (fun t _ => R0.flushed_eq V c t) R0.cover
end Cert.KernelIdeal.Val
end
-- ==== Proof.LibMatrixLayout.lean ====
/-
  Three layout facts about matrices, read at an index given by coordinates.

  * A vector of `n` numbers laid out as one row (`[n] → [1, n]`) and repeated down `R` rows reads, at `(r, j)`, its
    entry `j`: how a bias is added to every row of a matrix.
  * Two matrices with the same number of rows set side by side (`[R, a]`, `[R, b]` → `[R, c]`) read, at `(r, q)`,
    the left one at `(r, q)` when `q < a` and the right one at `(r, q - a)` otherwise.
  * Two matrices with the same number of columns set one above the other (`[a, C]`, `[b, C]` → `[c, C]`) read, at
    `(q, d)`, the upper one at `(q, d)` when `q < a` and the lower one at `(q - a, d)` otherwise.
-/
import Idealize.ShloMosaic.Lib.Pipeline.Value
import Idealize.ShloMosaic.Lib.ValueLayout

namespace Idealize.ShloMosaic.MatrixLayout

open Idealize.ShloMosaic Idealize.ShloMosaic.ValueIdx

variable {α : Type}

/-- One row repeated down the rows of a matrix. -/
theorem row_broadcast_apply {R n : ℕ} (v : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ v h1) h2 (ix2 r j) = v (ix1 j) :=
  (broadcastTo_1b_ab_apply _ h2 r j).trans (shapeCast_a_1a_apply v h1 0 j)

/-- Side by side, left part. -/
theorem beside_left {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : q.val < a) :
    concatenate ⟨2, ![R, c]⟩ 1 [⟨⟨2, ![R, a]⟩, x₁⟩, ⟨⟨2, ![R, b]⟩, x₂⟩] h (ix2 r q) = x₁ (ix2 r ⟨q.val, hq⟩) :=
  concatenate_pair_apply_left (1 : Fin 2) x₁ x₂ h (ix2 r q) rfl (ix2 r ⟨q.val, hq⟩) fun d => by
    match d with
    | ⟨0, _⟩ => rfl
    | ⟨1, _⟩ => rfl

/-- Side by side, right part. -/
theorem beside_right {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : a ≤ q.val)
    (hb : q.val - a < b) :
    concatenate ⟨2, ![R, c]⟩ 1 [⟨⟨2, ![R, a]⟩, x₁⟩, ⟨⟨2, ![R, b]⟩, x₂⟩] h (ix2 r q) = x₂ (ix2 r ⟨q.val - a, hb⟩) :=
  concatenate_pair_apply_right (1 : Fin 2) x₁ x₂ h (ix2 r q) rfl rfl (ix2 r ⟨q.val - a, hb⟩)
    (fun d hd => by
      match d with
      | ⟨0, _⟩ => rfl
      | ⟨1, _⟩ => exact absurd rfl hd)
    (by show q.val - a + a = q.val; omega)

/-- One above the other, upper part. -/
theorem above_upper {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : q.val < a) :
    concatenate ⟨2, ![c, C]⟩ 0 [⟨⟨2, ![a, C]⟩, x₁⟩, ⟨⟨2, ![b, C]⟩, x₂⟩] h (ix2 q d) = x₁ (ix2 ⟨q.val, hq⟩ d) :=
  concatenate_pair_apply_left (0 : Fin 2) x₁ x₂ h (ix2 q d) rfl (ix2 ⟨q.val, hq⟩ d) fun e => by
    match e with
    | ⟨0, _⟩ => rfl
    | ⟨1, _⟩ => rfl

/-- One above the other, lower part. -/
theorem above_lower {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : a ≤ q.val)
    (hb : q.val - a < b) :
    concatenate ⟨2, ![c, C]⟩ 0 [⟨⟨2, ![a, C]⟩, x₁⟩, ⟨⟨2, ![b, C]⟩, x₂⟩] h (ix2 q d) = x₂ (ix2 ⟨q.val - a, hb⟩ d) :=
  concatenate_pair_apply_right (0 : Fin 2) x₁ x₂ h (ix2 q d) rfl rfl (ix2 ⟨q.val - a, hb⟩ d)
    (fun e he => by
      match e with
      | ⟨0, _⟩ => exact absurd rfl he
      | ⟨1, _⟩ => rfl)
    (by show q.val - a + a = q.val; omega)

end Idealize.ShloMosaic.MatrixLayout
-- ==== Proof.Region1.lean ====
/-
  The array that region 1 of the program leaves in its output, as one function of the arrays it reads.

  The region walks 20 grid points. At point t it reads rows 2000 t … 2000 t + 1999 of the gathered sums agg
  (40000 × 128), of the previous scaled product hws (40000 × 128) and of the column d (40000 × 1), reads the five
  parameter vectors b, g, be, m, v (length 128) and the weight matrix W (128 × 128) whole, and writes rows
  2000 t … 2000 t + 1999 of its output. Row p of the block it writes is, at column q,

      ( ∑ k, act (d n · (agg (n, k) + hws (n, k)) + b k) (m k) (v k) (g k) (be k) · W (k, q) ) · d n,   n = 2000 t + p,

  that is, entry (n, q) of Cert.Gcn.fused of the nine arrays: the entry depends on row n of agg and hws, on d n, on all
  of the parameter vectors and on column q of W, and on nothing else. The 20 blocks tile the 40000 rows, so the output
  array is Cert.Gcn.fused of the nine arrays.
-/
import proofs.«120343_j70858370450156_2_alg».proof.Proof.Gen.KernelIdeal.Frame
import proofs.«120343_j70858370450156_2_alg».proof.Proof.Spec
import proofs.«120343_j70858370450156_2_alg».proof.Proof.LibPlainDot
import proofs.«120343_j70858370450156_2_alg».proof.Proof.LibColumn
import proofs.«120343_j70858370450156_2_alg».proof.Proof.LibMatrixLayout
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem Idealize.ShloMosaic.ValueIdx
open Cert.Gcn
open scoped BigOperators

namespace R1

/-! ## One block's arithmetic at an entry -/

/-- The reciprocal square root of a vector, read at an index, is the reciprocal square root of its entry. -/
theorem rsqrt_apply {s : Shape} {φ : FTy} (a : FVec Ideal s φ) (i : s.Idx) : rsqrt a i = Ideal.rsqrt (a i) := rfl

/-- Entry (p, q) of the block the body computes from blocks x0 (agg), x1 (hws), x2 (d), x3 (b), x4 (g), x5 (be),
    x6 (m), x7 (v), x8 (W): the product of the activations' row p with column q of W, scaled by d at row p. The
    roundings to the narrower float type are the identity on extended reals; a parameter vector laid out as one row
    and repeated down the 2000 rows reads at (p, k) its entry k; the column d repeated across 128 columns reads at
    (p, k) its entry of row p; the matrix product into a zero accumulator is the sum over the 128 inner indices. -/
theorem pay_at (x0 : Vec Ideal S2000x128 .f32) (x1 : Vec Ideal S2000x128 .bf16) (x2 : Vec Ideal S2000x1 .f32)
    (x3 x4 x5 x6 x7 : Vec Ideal S128 .f32) (x8 : Vec Ideal S128x128 .f32) (p : Fin 2000) (q : Fin 128) :
    k1_pay1 x0 x1 x2 x3 x4 x5 x6 x7 x8 (ix2 p q)
      = (∑ k : Fin 128,
          act (x2 (ix2 p (0 : Fin 1)) * (x0 (ix2 p k) + x1 (ix2 p k)) + x3 (ix1 k)) (x6 (ix1 k)) (x7 (ix1 k)) (x4 (ix1 k)) (x5 (ix1 k))
            * x8 (ix2 k q)) * x2 (ix2 p (0 : Fin 1)) := by
  unfold k1_pay1
  -- the outer rounding, the scaling by d, and the matrix product as a sum over k
  rw [truncf_apply, mulf_apply,
    show dot_S2000x128_S128x128_S2000x128_1_0_0_1_n_n = DotDims.plain 2000 128 128 from rfl,
    PlainDot.matmul_zero_apply, ColumnLayout.broadcastTo_a1_ab_apply, shapeCast_self]
  refine congrArg (· * x2 (ix2 p (0 : Fin 1))) (Finset.sum_congr rfl fun k _ => ?_)
  -- the summand: the pointwise operations at (p, k), then each repeated row or column read at (p, k)
  simp only [truncf_apply, addf_apply, mulf_apply, subf_apply, maximumf_apply, extf_apply, broadcast_apply]
  rw [ColumnLayout.broadcastTo_a1_ab_apply, shapeCast_self, shapeCast_self,
    MatrixLayout.row_broadcast_apply, MatrixLayout.row_broadcast_apply, MatrixLayout.row_broadcast_apply, MatrixLayout.row_broadcast_apply,
    broadcastTo_1b_ab_apply, rsqrt_apply, addf_apply, shapeCast_a_1a_apply, broadcast_apply]
  rfl

/-- If the blocks are the rows of whole arrays at row n (the row-tiled ones) or the whole arrays (the parameters),
    entry (p, q) of the computed block is entry (n, q) of Cert.Gcn.fused of the whole arrays. Only row p of x0, x1, x2,
    the parameter vectors, and column q of x8 are asked about. -/
theorem point_eq (agg hws : Mat 40000 128) (d : Mat 40000 1) (b g be m v : Row 128) (W : Mat 128 128)
    (x0 : Vec Ideal S2000x128 .f32) (x1 : Vec Ideal S2000x128 .bf16) (x2 : Vec Ideal S2000x1 .f32)
    (x3 x4 x5 x6 x7 : Vec Ideal S128 .f32) (x8 : Vec Ideal S128x128 .f32) (n : Fin 40000) (p : Fin 2000) (q : Fin 128)
    (h0 : ∀ k : Fin 128, x0 (ix2 p k) = agg (ix2 n k)) (h1 : ∀ k : Fin 128, x1 (ix2 p k) = hws (ix2 n k))
    (h2 : x2 (ix2 p (0 : Fin 1)) = d (ix2 n (0 : Fin 1)))
    (h3 : ∀ k : Fin 128, x3 (ix1 k) = b (ix1 k)) (h4 : ∀ k : Fin 128, x4 (ix1 k) = g (ix1 k))
    (h5 : ∀ k : Fin 128, x5 (ix1 k) = be (ix1 k)) (h6 : ∀ k : Fin 128, x6 (ix1 k) = m (ix1 k))
    (h7 : ∀ k : Fin 128, x7 (ix1 k) = v (ix1 k)) (h8 : ∀ k : Fin 128, x8 (ix2 k q) = W (ix2 k q)) :
    k1_pay1 x0 x1 x2 x3 x4 x5 x6 x7 x8 (ix2 p q) = fused agg hws d b g be m v W (ix2 n q) := by
  rw [pay_at, fused_ix2, h2]
  unfold fusedC epilogueC
  refine congrArg (· * d (ix2 n (0 : Fin 1))) (Finset.sum_congr rfl fun k _ => ?_)
  rw [h0 k, h1 k, h3 k, h4 k, h5 k, h6 k, h7 k, h8 k]

/-! ## Where each block sits in its array

An element of a block sits in its array, on each axis, at block index × block size + its coordinate inside the block. -/

theorem hz2 : (![0, 0] : Fin 2 → Nat) = fun _ => 0 := funext fun a => by fin_cases a <;> rfl
theorem hz1 : (![0] : Fin 1 → Nat) = fun _ => 0 := funext fun a => by fin_cases a <;> rfl

/-- The block indices over the 20 grid points: the row-tiled windows (agg, hws, d and the output) sit at block row t
    and block column 0; the parameter windows sit at block 0 on every axis. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 1) = 0 := (by decide +kernel : ∀ t : Fin grid1.N, _)
theorem idx4 : ∀ t : Fin cfg1.N, win1_4.index t (0 : Fin 1) = 0 := (by decide +kernel : ∀ t : Fin grid1.N, _)
theorem idx5 : ∀ t : Fin cfg1.N, win1_5.index t (0 : Fin 1) = 0 := (by decide +kernel : ∀ t : Fin grid1.N, _)
theorem idx6 : ∀ t : Fin cfg1.N, win1_6.index t (0 : Fin 1) = 0 := (by decide +kernel : ∀ t : Fin grid1.N, _)
theorem idx7 : ∀ t : Fin cfg1.N, win1_7.index t (0 : Fin 1) = 0 := (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = t.val ∧ win1_9.index t (1 : Fin 2) = 0 :=
  (by decide +kernel : ∀ t : Fin grid1.N, _)

theorem lt20 (t : Fin cfg1.N) : t.val < 20 := t.isLt.trans_eq N_1

/-- Row p of point t's block is row 2000 t + p of the array. -/
def rowOf (t : Fin cfg1.N) (p : Fin 2000) : Fin 40000 :=
  ⟨2000 * t.val + p.val, by have := lt20 t; have := p.isLt; omega⟩

variable (V : (c : Dev nD) → (b : Ref sig .tc) → Buf (Elt Ideal) ((c : Thread nD τ).loc b))

/-- Row p of the block of agg at point t is row 2000 t + p of agg. -/
theorem blk0 (c : Dev nD) (t : Fin cfg1.N) (p : Fin 2000) (k : Fin 128) :
    iblk1 V c 0 t (ix2 p k) = V c main_v23 (ix2 (rowOf t p) k) := by
  obtain ⟨e0, e1⟩ := idx0 t
  show V c main_v23 (((cfg1.win 0).blk t).view.emb (ix2 p k)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- Row p of the block of hws at point t is row 2000 t + p of hws. -/
theorem blk1 (c : Dev nD) (t : Fin cfg1.N) (p : Fin 2000) (k : Fin 128) :
    iblk1 V c 1 t (ix2 p k) = V c main_v12 (ix2 (rowOf t p) k) := by
  obtain ⟨e0, e1⟩ := idx1 t
  show V c main_v12 (((cfg1.win 1).blk t).view.emb (ix2 p k)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- Entry p of the block of the column d at point t is entry 2000 t + p of d. -/
theorem blk2 (c : Dev nD) (t : Fin cfg1.N) (p : Fin 2000) :
    iblk1 V c 2 t (ix2 p (0 : Fin 1)) = V c main_v11 (ix2 (rowOf t p) (0 : Fin 1)) := by
  obtain ⟨e0, e1⟩ := idx2 t
  show V c main_v11 (((cfg1.win 2).blk t).view.emb (ix2 p (0 : Fin 1))) = _
  refine congrArg _ (funext fun a => Fin.ext ?_)
  match a with
  | ⟨0, _⟩ => show win1_2.index t (0 : Fin 2) * 2000 + 1 * p.val = 2000 * t.val + p.val; omega
  | ⟨1, _⟩ => show win1_2.index t (1 : Fin 2) * 1 + 1 * 0 = 0; omega

/-- The block of the parameter vector b at any point is the whole vector. -/
theorem blk3 (c : Dev nD) (t : Fin cfg1.N) (k : Fin 128) : iblk1 V c 3 t (ix1 k) = V c main_arg4 (ix1 k) := by
  have e0 := idx3 t
  show V c main_arg4 (((cfg1.win 3).blk t).view.emb (ix1 k)) = _
  refine congrArg _ (funext fun a => Fin.ext ?_)
  match a with
  | ⟨0, _⟩ => show win1_3.index t (0 : Fin 1) * 128 + 1 * k.val = k.val; omega

/-- The block of the parameter vector g at any point is the whole vector. -/
theorem blk4 (c : Dev nD) (t : Fin cfg1.N) (k : Fin 128) : iblk1 V c 4 t (ix1 k) = V c main_arg5 (ix1 k) := by
  have e0 := idx4 t
  show V c main_arg5 (((cfg1.win 4).blk t).view.emb (ix1 k)) = _
  refine congrArg _ (funext fun a => Fin.ext ?_)
  match a with
  | ⟨0, _⟩ => show win1_4.index t (0 : Fin 1) * 128 + 1 * k.val = k.val; omega

/-- The block of the parameter vector be at any point is the whole vector. -/
theorem blk5 (c : Dev nD) (t : Fin cfg1.N) (k : Fin 128) : iblk1 V c 5 t (ix1 k) = V c main_arg6 (ix1 k) := by
  have e0 := idx5 t
  show V c main_arg6 (((cfg1.win 5).blk t).view.emb (ix1 k)) = _
  refine congrArg _ (funext fun a => Fin.ext ?_)
  match a with
  | ⟨0, _⟩ => show win1_5.index t (0 : Fin 1) * 128 + 1 * k.val = k.val; omega

/-- The block of the parameter vector m at any point is the whole vector. -/
theorem blk6 (c : Dev nD) (t : Fin cfg1.N) (k : Fin 128) : iblk1 V c 6 t (ix1 k) = V c main_arg7 (ix1 k) := by
  have e0 := idx6 t
  show V c main_arg7 (((cfg1.win 6).blk t).view.emb (ix1 k)) = _
  refine congrArg _ (funext fun a => Fin.ext ?_)
  match a with
  | ⟨0, _⟩ => show win1_6.index t (0 : Fin 1) * 128 + 1 * k.val = k.val; omega

/-- The block of the parameter vector v at any point is the whole vector. -/
theorem blk7 (c : Dev nD) (t : Fin cfg1.N) (k : Fin 128) : iblk1 V c 7 t (ix1 k) = V c main_arg8 (ix1 k) := by
  have e0 := idx7 t
  show V c main_arg8 (((cfg1.win 7).blk t).view.emb (ix1 k)) = _
  refine congrArg _ (funext fun a => Fin.ext ?_)
  match a with
  | ⟨0, _⟩ => show win1_7.index t (0 : Fin 1) * 128 + 1 * k.val = k.val; omega

/-- The block of the weight matrix W at any point is the whole matrix. -/
theorem blk8 (c : Dev nD) (t : Fin cfg1.N) (k q : Fin 128) : iblk1 V c 8 t (ix2 k q) = V c main_arg9 (ix2 k q) := by
  obtain ⟨e0, e1⟩ := idx8 t
  show V c main_arg9 (((cfg1.win 8).blk t).view.emb (ix2 k q)) = _
  refine congrArg _ (funext fun a => Fin.ext ?_)
  match a with
  | ⟨0, _⟩ => show win1_8.index t (0 : Fin 2) * 128 + 1 * k.val = k.val; omega
  | ⟨1, _⟩ => show win1_8.index t (1 : Fin 2) * 128 + 1 * q.val = q.val; omega

/-- Entry (p, q) of the output block at point t is entry (2000 t + p, q) of the output array. -/
theorem out_emb (t : Fin cfg1.N) (p : Fin 2000) (q : Fin 128) :
    ((cfg1.win 9).blk t).view.emb (ix2 p q) = ix2 (rowOf t p) q := by
  obtain ⟨e0, e1⟩ := idx9 t
  funext a; apply Fin.ext
  match a with
  | ⟨0, _⟩ => show win1_9.index t (0 : Fin 2) * 2000 + 1 * p.val = 2000 * t.val + p.val; omega
  | ⟨1, _⟩ => show win1_9.index t (1 : Fin 2) * 128 + 1 * q.val = q.val; omega

/-! ## What a point writes back -/

/-- What grid point t writes back to the output array is block t of any whole-array function G that, at every entry
    of the block, is the body's arithmetic of the input blocks at t. -/
theorem flushed_of (c : Dev nD) (t : Fin cfg1.N) (G : Buf (Elt Ideal) ((cfg1.win 9).arr.view.loc (c.tc : Thread nD τ)))
    (hG : ∀ (p : Fin 2000) (q : Fin 128),
      k1_pay1 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
        = G (((cfg1.win 9).blk t).view.emb (ix2 p q))) :
    (dat1 (F := Ideal) V c).flushed 9 t = ((cfg1.win 9).blk t).view.read (Elt Ideal) G := by
  show (cfg1.win 9).cut (grid1.coords t) ((dat1 V c).after 9 t) = _
  rw [after1_9]
  unfold out1_9
  rw [View.canon_unit_zero hz2]
  simp only [View.ld_unit_zero (S := S2000x128) hz2, View.ld_unit_zero (S := S2000x1) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact hG p q

/-- Point t writes back block t of Cert.Gcn.fused of the arrays the region reads. -/
theorem flushed_eq (c : Dev nD) (t : Fin cfg1.N) :
    (dat1 (F := Ideal) V c).flushed 9 t = ((cfg1.win 9).blk t).view.read (Elt Ideal)
      (fused (V c main_v23) (V c main_v12) (V c main_v11) (V c main_arg4) (V c main_arg5) (V c main_arg6) (V c main_arg7) (V c main_arg8) (V c main_arg9)) :=
  flushed_of V c t _ fun p q =>
    (point_eq (V c main_v23) (V c main_v12) (V c main_v11) (V c main_arg4) (V c main_arg5) (V c main_arg6) (V c main_arg7) (V c main_arg8) (V c main_arg9)
      (iblk1 V c 0 t) (iblk1 V c 1 t) (iblk1 V c 2 t) (iblk1 V c 3 t) (iblk1 V c 4 t) (iblk1 V c 5 t) (iblk1 V c 6 t) (iblk1 V c 7 t) (iblk1 V c 8 t)
      (rowOf t p) p q (blk0 V c t p) (blk1 V c t p) (blk2 V c t p) (blk3 V c t) (blk4 V c t) (blk5 V c t) (blk6 V c t) (blk7 V c t)
      (fun k => blk8 V c t k q)).trans
    (congrArg (fused (V c main_v23) (V c main_v12) (V c main_v11) (V c main_arg4) (V c main_arg5) (V c main_arg6) (V c main_arg7) (V c main_arg8) (V c main_arg9)) (out_emb t p q).symm)

/-! ## The blocks tile the output array -/

/-- An index of the output array is in point t's block iff each coordinate is in the block's range on its axis. -/
theorem mem_blk (t : Fin cfg1.N) (i : S40000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v24).slice (win1_9.rect t)).set ↔ _
  rw [View.set_slice_whole, Rect.mem_set_unit]
  exact Iff.rfl

/-- Every index (n, q) of the output array is in the block of the point n / 2000: 2000 (n / 2000) ≤ n < 2000 (n / 2000) + 2000,
    and the one block column holds all 128 columns. -/
theorem covered (i : S40000x128.Idx) :
    ∃ t : Fin cfg1.N, (cfg1.win 9).flush t = true ∧ i ∈ ((cfg1.win 9).blk t).view.set := by
  have hi0 : (i 0).val < 40000 := (i 0).isLt
  have hi1 : (i 1).val < 128 := (i 1).isLt
  have hN : (i 0).val / 2000 < cfg1.N := by
    show (i 0).val / 2000 < grid1.N
    rw [N_1]; omega
  refine ⟨⟨(i 0).val / 2000, hN⟩, flush1_9 _, ?_⟩
  obtain ⟨e90, e91⟩ := idx9 ⟨(i 0).val / 2000, hN⟩
  have e90' : win1_9.index ⟨(i 0).val / 2000, hN⟩ (0 : Fin 2) = (i 0).val / 2000 := e90
  rw [mem_blk]
  intro a
  match a with
  | ⟨0, _⟩ => show win1_9.index ⟨(i 0).val / 2000, hN⟩ (0 : Fin 2) * 2000 ≤ (i 0).val ∧ (i 0).val < win1_9.index ⟨(i 0).val / 2000, hN⟩ (0 : Fin 2) * 2000 + 2000; omega
  | ⟨1, _⟩ => show win1_9.index ⟨(i 0).val / 2000, hN⟩ (1 : Fin 2) * 128 ≤ (i 1).val ∧ (i 1).val < win1_9.index ⟨(i 0).val / 2000, hN⟩ (1 : Fin 2) * 128 + 128; omega

end R1

/-! ## The output array -/

variable (V : (c : Dev nD) → (b : Ref sig .tc) → Buf (Elt Ideal) ((c : Thread nD τ).loc b))

/-- After the region's 20 points the output array is Cert.Gcn.fused of the arrays the region read, as it found them:
    every point writes its block of that function, and the blocks cover the array. -/
theorem final1 (c : Dev nD) :
    ((dat1 (F := Ideal) V c).arrAt 9 cfg1.N : Mat 40000 128)
      = fused (V c main_v23) (V c main_v12) (V c main_v11) (V c main_arg4) (V c main_arg5) (V c main_arg6) (V c main_arg7) (V c main_arg8) (V c main_arg9) :=
  (dat1 (F := Ideal) V c).arrAt_eq_of_cover 9 _ (fun t _ => R1.flushed_eq V c t) R1.covered

end Cert.KernelIdeal.Val

end
-- ==== Proof.Region2.lean ====
/-
  The array that region 2 of the program leaves in its output, as one function of the arrays it reads.

  The region walks 20 grid points. At point t it reads rows 2000 t … 2000 t + 1999 of the gathered sums agg
  (40000 × 128), of the previous scaled product hws (40000 × 128) and of the column d (40000 × 1), reads the five
  parameter vectors b, g, be, m, v (length 128) and the weight matrix W (128 × 128) whole, and writes rows
  2000 t … 2000 t + 1999 of its output. Row p of the block it writes is, at column q,

      ( ∑ k, act (d n · (agg (n, k) + hws (n, k)) + b k) (m k) (v k) (g k) (be k) · W (k, q) ) · d n,   n = 2000 t + p,

  that is, entry (n, q) of Cert.Gcn.fused of the nine arrays: the entry depends on row n of agg and hws, on d n, on all
  of the parameter vectors and on column q of W, and on nothing else. The 20 blocks tile the 40000 rows, so the output
  array is Cert.Gcn.fused of the nine arrays.
-/
import proofs.«120343_j70858370450156_2_alg».proof.Proof.Gen.KernelIdeal.Frame
import proofs.«120343_j70858370450156_2_alg».proof.Proof.Spec
import proofs.«120343_j70858370450156_2_alg».proof.Proof.LibPlainDot
import proofs.«120343_j70858370450156_2_alg».proof.Proof.LibColumn
import proofs.«120343_j70858370450156_2_alg».proof.Proof.LibMatrixLayout
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem Idealize.ShloMosaic.ValueIdx
open Cert.Gcn
open scoped BigOperators

namespace R2

/-! ## One block's arithmetic at an entry -/

/-- The reciprocal square root of a vector, read at an index, is the reciprocal square root of its entry. -/
theorem rsqrt_apply {s : Shape} {φ : FTy} (a : FVec Ideal s φ) (i : s.Idx) : rsqrt a i = Ideal.rsqrt (a i) := rfl

/-- Entry (p, q) of the block the body computes from blocks x0 (agg), x1 (hws), x2 (d), x3 (b), x4 (g), x5 (be),
    x6 (m), x7 (v), x8 (W): the product of the activations' row p with column q of W, scaled by d at row p. The
    roundings to the narrower float type are the identity on extended reals; a parameter vector laid out as one row
    and repeated down the 2000 rows reads at (p, k) its entry k; the column d repeated across 128 columns reads at
    (p, k) its entry of row p; the matrix product into a zero accumulator is the sum over the 128 inner indices. -/
theorem pay_at (x0 : Vec Ideal S2000x128 .f32) (x1 : Vec Ideal S2000x128 .bf16) (x2 : Vec Ideal S2000x1 .f32)
    (x3 x4 x5 x6 x7 : Vec Ideal S128 .f32) (x8 : Vec Ideal S128x128 .f32) (p : Fin 2000) (q : Fin 128) :
    k2_pay1 x0 x1 x2 x3 x4 x5 x6 x7 x8 (ix2 p q)
      = (∑ k : Fin 128,
          act (x2 (ix2 p (0 : Fin 1)) * (x0 (ix2 p k) + x1 (ix2 p k)) + x3 (ix1 k)) (x6 (ix1 k)) (x7 (ix1 k)) (x4 (ix1 k)) (x5 (ix1 k))
            * x8 (ix2 k q)) * x2 (ix2 p (0 : Fin 1)) := by
  unfold k2_pay1
  -- the outer rounding, the scaling by d, and the matrix product as a sum over k
  rw [truncf_apply, mulf_apply,
    show dot_S2000x128_S128x128_S2000x128_1_0_0_1_n_n = DotDims.plain 2000 128 128 from rfl,
    PlainDot.matmul_zero_apply, ColumnLayout.broadcastTo_a1_ab_apply, shapeCast_self]
  refine congrArg (· * x2 (ix2 p (0 : Fin 1))) (Finset.sum_congr rfl fun k _ => ?_)
  -- the summand: the pointwise operations at (p, k), then each repeated row or column read at (p, k)
  simp only [truncf_apply, addf_apply, mulf_apply, subf_apply, maximumf_apply, extf_apply, broadcast_apply]
  rw [ColumnLayout.broadcastTo_a1_ab_apply, shapeCast_self, shapeCast_self,
    MatrixLayout.row_broadcast_apply, MatrixLayout.row_broadcast_apply, MatrixLayout.row_broadcast_apply, MatrixLayout.row_broadcast_apply,
    broadcastTo_1b_ab_apply, rsqrt_apply, addf_apply, shapeCast_a_1a_apply, broadcast_apply]
  rfl

/-- If the blocks are the rows of whole arrays at row n (the row-tiled ones) or the whole arrays (the parameters),
    entry (p, q) of the computed block is entry (n, q) of Cert.Gcn.fused of the whole arrays. Only row p of x0, x1, x2,
    the parameter vectors, and column q of x8 are asked about. -/
theorem point_eq (agg hws : Mat 40000 128) (d : Mat 40000 1) (b g be m v : Row 128) (W : Mat 128 128)
    (x0 : Vec Ideal S2000x128 .f32) (x1 : Vec Ideal S2000x128 .bf16) (x2 : Vec Ideal S2000x1 .f32)
    (x3 x4 x5 x6 x7 : Vec Ideal S128 .f32) (x8 : Vec Ideal S128x128 .f32) (n : Fin 40000) (p : Fin 2000) (q : Fin 128)
    (h0 : ∀ k : Fin 128, x0 (ix2 p k) = agg (ix2 n k)) (h1 : ∀ k : Fin 128, x1 (ix2 p k) = hws (ix2 n k))
    (h2 : x2 (ix2 p (0 : Fin 1)) = d (ix2 n (0 : Fin 1)))
    (h3 : ∀ k : Fin 128, x3 (ix1 k) = b (ix1 k)) (h4 : ∀ k : Fin 128, x4 (ix1 k) = g (ix1 k))
    (h5 : ∀ k : Fin 128, x5 (ix1 k) = be (ix1 k)) (h6 : ∀ k : Fin 128, x6 (ix1 k) = m (ix1 k))
    (h7 : ∀ k : Fin 128, x7 (ix1 k) = v (ix1 k)) (h8 : ∀ k : Fin 128, x8 (ix2 k q) = W (ix2 k q)) :
    k2_pay1 x0 x1 x2 x3 x4 x5 x6 x7 x8 (ix2 p q) = fused agg hws d b g be m v W (ix2 n q) := by
  rw [pay_at, fused_ix2, h2]
  unfold fusedC epilogueC
  refine congrArg (· * d (ix2 n (0 : Fin 1))) (Finset.sum_congr rfl fun k _ => ?_)
  rw [h0 k, h1 k, h3 k, h4 k, h5 k, h6 k, h7 k, h8 k]

/-! ## Where each block sits in its array

An element of a block sits in its array, on each axis, at block index × block size + its coordinate inside the block. -/

theorem hz2 : (![0, 0] : Fin 2 → Nat) = fun _ => 0 := funext fun a => by fin_cases a <;> rfl
theorem hz1 : (![0] : Fin 1 → Nat) = fun _ => 0 := funext fun a => by fin_cases a <;> rfl

/-- The block indices over the 20 grid points: the row-tiled windows (agg, hws, d and the output) sit at block row t
    and block column 0; the parameter windows sit at block 0 on every axis. -/
theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 1) = 0 := (by decide +kernel : ∀ t : Fin grid2.N, _)
theorem idx4 : ∀ t : Fin cfg2.N, win2_4.index t (0 : Fin 1) = 0 := (by decide +kernel : ∀ t : Fin grid2.N, _)
theorem idx5 : ∀ t : Fin cfg2.N, win2_5.index t (0 : Fin 1) = 0 := (by decide +kernel : ∀ t : Fin grid2.N, _)
theorem idx6 : ∀ t : Fin cfg2.N, win2_6.index t (0 : Fin 1) = 0 := (by decide +kernel : ∀ t : Fin grid2.N, _)
theorem idx7 : ∀ t : Fin cfg2.N, win2_7.index t (0 : Fin 1) = 0 := (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = t.val ∧ win2_9.index t (1 : Fin 2) = 0 :=
  (by decide +kernel : ∀ t : Fin grid2.N, _)

theorem lt20 (t : Fin cfg2.N) : t.val < 20 := t.isLt.trans_eq N_2

/-- Row p of point t's block is row 2000 t + p of the array. -/
def rowOf (t : Fin cfg2.N) (p : Fin 2000) : Fin 40000 :=
  ⟨2000 * t.val + p.val, by have := lt20 t; have := p.isLt; omega⟩

variable (V : (c : Dev nD) → (b : Ref sig .tc) → Buf (Elt Ideal) ((c : Thread nD τ).loc b))

/-- Row p of the block of agg at point t is row 2000 t + p of agg. -/
theorem blk0 (c : Dev nD) (t : Fin cfg2.N) (p : Fin 2000) (k : Fin 128) :
    iblk2 V c 0 t (ix2 p k) = V c main_v35 (ix2 (rowOf t p) k) := by
  obtain ⟨e0, e1⟩ := idx0 t
  show V c main_v35 (((cfg2.win 0).blk t).view.emb (ix2 p k)) = _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

/-- Row p of the block of hws at point t is row 2000 t + p of hws. -/
theorem blk1 (c : Dev nD) (t : Fin cfg2.N) (p : Fin 2000) (k : Fin 128) :
    iblk2 V c 1 t (ix2 p k) = V c main_v24 (ix2 (rowOf t p) k) := by
  obtain ⟨e0, e1⟩ := idx1 t
  show V c main_v24 (((cfg2.win 1).blk t).view.emb (ix2 p k)) = _
  refine congrArg _ (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * k.val = k.val; omega

/-- Entry p of the block of the column d at point t is entry 2000 t + p of d. -/
theorem blk2 (c : Dev nD) (t : Fin cfg2.N) (p : Fin 2000) :
    iblk2 V c 2 t (ix2 p (0 : Fin 1)) = V c main_v11 (ix2 (rowOf t p) (0 : Fin 1)) := by
  obtain ⟨e0, e1⟩ := idx2 t
  show V c main_v11 (((cfg2.win 2).blk t).view.emb (ix2 p (0 : Fin 1))) = _
  refine congrArg _ (funext fun a => Fin.ext ?_)
  match a with
  | ⟨0, _⟩ => show win2_2.index t (0 : Fin 2) * 2000 + 1 * p.val = 2000 * t.val + p.val; omega
  | ⟨1, _⟩ => show win2_2.index t (1 : Fin 2) * 1 + 1 * 0 = 0; omega

/-- The block of the parameter vector b at any point is the whole vector. -/
theorem blk3 (c : Dev nD) (t : Fin cfg2.N) (k : Fin 128) : iblk2 V c 3 t (ix1 k) = V c main_arg10 (ix1 k) := by
  have e0 := idx3 t
  show V c main_arg10 (((cfg2.win 3).blk t).view.emb (ix1 k)) = _
  refine congrArg _ (funext fun a => Fin.ext ?_)
  match a with
  | ⟨0, _⟩ => show win2_3.index t (0 : Fin 1) * 128 + 1 * k.val = k.val; omega

/-- The block of the parameter vector g at any point is the whole vector. -/
theorem blk4 (c : Dev nD) (t : Fin cfg2.N) (k : Fin 128) : iblk2 V c 4 t (ix1 k) = V c main_arg11 (ix1 k) := by
  have e0 := idx4 t
  show V c main_arg11 (((cfg2.win 4).blk t).view.emb (ix1 k)) = _
  refine congrArg _ (funext fun a => Fin.ext ?_)
  match a with
  | ⟨0, _⟩ => show win2_4.index t (0 : Fin 1) * 128 + 1 * k.val = k.val; omega

/-- The block of the parameter vector be at any point is the whole vector. -/
theorem blk5 (c : Dev nD) (t : Fin cfg2.N) (k : Fin 128) : iblk2 V c 5 t (ix1 k) = V c main_arg12 (ix1 k) := by
  have e0 := idx5 t
  show V c main_arg12 (((cfg2.win 5).blk t).view.emb (ix1 k)) = _
  refine congrArg _ (funext fun a => Fin.ext ?_)
  match a with
  | ⟨0, _⟩ => show win2_5.index t (0 : Fin 1) * 128 + 1 * k.val = k.val; omega

/-- The block of the parameter vector m at any point is the whole vector. -/
theorem blk6 (c : Dev nD) (t : Fin cfg2.N) (k : Fin 128) : iblk2 V c 6 t (ix1 k) = V c main_arg13 (ix1 k) := by
  have e0 := idx6 t
  show V c main_arg13 (((cfg2.win 6).blk t).view.emb (ix1 k)) = _
  refine congrArg _ (funext fun a => Fin.ext ?_)
  match a with
  | ⟨0, _⟩ => show win2_6.index t (0 : Fin 1) * 128 + 1 * k.val = k.val; omega

/-- The block of the parameter vector v at any point is the whole vector. -/
theorem blk7 (c : Dev nD) (t : Fin cfg2.N) (k : Fin 128) : iblk2 V c 7 t (ix1 k) = V c main_arg14 (ix1 k) := by
  have e0 := idx7 t
  show V c main_arg14 (((cfg2.win 7).blk t).view.emb (ix1 k)) = _
  refine congrArg _ (funext fun a => Fin.ext ?_)
  match a with
  | ⟨0, _⟩ => show win2_7.index t (0 : Fin 1) * 128 + 1 * k.val = k.val; omega

/-- The block of the weight matrix W at any point is the whole matrix. -/
theorem blk8 (c : Dev nD) (t : Fin cfg2.N) (k q : Fin 128) : iblk2 V c 8 t (ix2 k q) = V c main_arg15 (ix2 k q) := by
  obtain ⟨e0, e1⟩ := idx8 t
  show V c main_arg15 (((cfg2.win 8).blk t).view.emb (ix2 k q)) = _
  refine congrArg _ (funext fun a => Fin.ext ?_)
  match a with
  | ⟨0, _⟩ => show win2_8.index t (0 : Fin 2) * 128 + 1 * k.val = k.val; omega
  | ⟨1, _⟩ => show win2_8.index t (1 : Fin 2) * 128 + 1 * q.val = q.val; omega

/-- Entry (p, q) of the output block at point t is entry (2000 t + p, q) of the output array. -/
theorem out_emb (t : Fin cfg2.N) (p : Fin 2000) (q : Fin 128) :
    ((cfg2.win 9).blk t).view.emb (ix2 p q) = ix2 (rowOf t p) q := by
  obtain ⟨e0, e1⟩ := idx9 t
  funext a; apply Fin.ext
  match a with
  | ⟨0, _⟩ => show win2_9.index t (0 : Fin 2) * 2000 + 1 * p.val = 2000 * t.val + p.val; omega
  | ⟨1, _⟩ => show win2_9.index t (1 : Fin 2) * 128 + 1 * q.val = q.val; omega

/-! ## What a point writes back -/

/-- What grid point t writes back to the output array is block t of any whole-array function G that, at every entry
    of the block, is the body's arithmetic of the input blocks at t. -/
theorem flushed_of (c : Dev nD) (t : Fin cfg2.N) (G : Buf (Elt Ideal) ((cfg2.win 9).arr.view.loc (c.tc : Thread nD τ)))
    (hG : ∀ (p : Fin 2000) (q : Fin 128),
      k2_pay1 (iblk2 V c 0 t) (iblk2 V c 1 t) (iblk2 V c 2 t) (iblk2 V c 3 t) (iblk2 V c 4 t) (iblk2 V c 5 t) (iblk2 V c 6 t) (iblk2 V c 7 t) (iblk2 V c 8 t) (ix2 p q)
        = G (((cfg2.win 9).blk t).view.emb (ix2 p q))) :
    (dat2 (F := Ideal) V c).flushed 9 t = ((cfg2.win 9).blk t).view.read (Elt Ideal) G := by
  show (cfg2.win 9).cut (grid2.coords t) ((dat2 V c).after 9 t) = _
  rw [after2_9]
  unfold out2_9
  rw [View.canon_unit_zero hz2]
  simp only [View.ld_unit_zero (S := S2000x128) hz2, View.ld_unit_zero (S := S2000x1) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact hG p q

/-- Point t writes back block t of Cert.Gcn.fused of the arrays the region reads. -/
theorem flushed_eq (c : Dev nD) (t : Fin cfg2.N) :
    (dat2 (F := Ideal) V c).flushed 9 t = ((cfg2.win 9).blk t).view.read (Elt Ideal)
      (fused (V c main_v35) (V c main_v24) (V c main_v11) (V c main_arg10) (V c main_arg11) (V c main_arg12) (V c main_arg13) (V c main_arg14) (V c main_arg15)) :=
  flushed_of V c t _ fun p q =>
    (point_eq (V c main_v35) (V c main_v24) (V c main_v11) (V c main_arg10) (V c main_arg11) (V c main_arg12) (V c main_arg13) (V c main_arg14) (V c main_arg15)
      (iblk2 V c 0 t) (iblk2 V c 1 t) (iblk2 V c 2 t) (iblk2 V c 3 t) (iblk2 V c 4 t) (iblk2 V c 5 t) (iblk2 V c 6 t) (iblk2 V c 7 t) (iblk2 V c 8 t)
      (rowOf t p) p q (blk0 V c t p) (blk1 V c t p) (blk2 V c t p) (blk3 V c t) (blk4 V c t) (blk5 V c t) (blk6 V c t) (blk7 V c t)
      (fun k => blk8 V c t k q)).trans
    (congrArg (fused (V c main_v35) (V c main_v24) (V c main_v11) (V c main_arg10) (V c main_arg11) (V c main_arg12) (V c main_arg13) (V c main_arg14) (V c main_arg15)) (out_emb t p q).symm)

/-! ## The blocks tile the output array -/

/-- An index of the output array is in point t's block iff each coordinate is in the block's range on its axis. -/
theorem mem_blk (t : Fin cfg2.N) (i : S40000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v36).slice (win2_9.rect t)).set ↔ _
  rw [View.set_slice_whole, Rect.mem_set_unit]
  exact Iff.rfl

/-- Every index (n, q) of the output array is in the block of the point n / 2000: 2000 (n / 2000) ≤ n < 2000 (n / 2000) + 2000,
    and the one block column holds all 128 columns. -/
theorem covered (i : S40000x128.Idx) :
    ∃ t : Fin cfg2.N, (cfg2.win 9).flush t = true ∧ i ∈ ((cfg2.win 9).blk t).view.set := by
  have hi0 : (i 0).val < 40000 := (i 0).isLt
  have hi1 : (i 1).val < 128 := (i 1).isLt
  have hN : (i 0).val / 2000 < cfg2.N := by
    show (i 0).val / 2000 < grid2.N
    rw [N_2]; omega
  refine ⟨⟨(i 0).val / 2000, hN⟩, flush2_9 _, ?_⟩
  obtain ⟨e90, e91⟩ := idx9 ⟨(i 0).val / 2000, hN⟩
  have e90' : win2_9.index ⟨(i 0).val / 2000, hN⟩ (0 : Fin 2) = (i 0).val / 2000 := e90
  rw [mem_blk]
  intro a
  match a with
  | ⟨0, _⟩ => show win2_9.index ⟨(i 0).val / 2000, hN⟩ (0 : Fin 2) * 2000 ≤ (i 0).val ∧ (i 0).val < win2_9.index ⟨(i 0).val / 2000, hN⟩ (0 : Fin 2) * 2000 + 2000; omega
  | ⟨1, _⟩ => show win2_9.index ⟨(i 0).val / 2000, hN⟩ (1 : Fin 2) * 128 ≤ (i 1).val ∧ (i 1).val < win2_9.index ⟨(i 0).val / 2000, hN⟩ (1 : Fin 2) * 128 + 128; omega

end R2

/-! ## The output array -/

variable (V : (c : Dev nD) → (b : Ref sig .tc) → Buf (Elt Ideal) ((c : Thread nD τ).loc b))

/-- After the region's 20 points the output array is Cert.Gcn.fused of the arrays the region read, as it found them:
    every point writes its block of that function, and the blocks cover the array. -/
theorem final2 (c : Dev nD) :
    ((dat2 (F := Ideal) V c).arrAt 9 cfg2.N : Mat 40000 128)
      = fused (V c main_v35) (V c main_v24) (V c main_v11) (V c main_arg10) (V c main_arg11) (V c main_arg12) (V c main_arg13) (V c main_arg14) (V c main_arg15) :=
  (dat2 (F := Ideal) V c).arrAt_eq_of_cover 9 _ (fun t _ => R2.flushed_eq V c t) R2.covered

end Cert.KernelIdeal.Val

end
-- ==== Proof.Region3.lean ====
/-
  Region 3 as a whole array. Each of the 20 grid points takes a block of 2000 rows of the two summand arrays and of the
  scale column, and the five whole parameter vectors (bias, scale, shift, mean, variance); entry (p, q) of its result is
  the scale of row p times the sum of the two summands' entries, plus the bias of column q, rectified, minus the mean,
  times the inverse square root of the variance plus the offset, times the scale, plus the shift of column q. The point's
  result is rows 2000 t ... 2000 t + 1999 of the result array. Entry by entry this is the specification's layer
  activations, and the 20 blocks tile the 40000 rows, so the array the region leaves is that function of the eight
  arrays it reads.
-/
import proofs.«120343_j70858370450156_2_alg».proof.Proof.Gen.KernelIdeal.Frame
import proofs.«120343_j70858370450156_2_alg».proof.Proof.Spec
import proofs.«120343_j70858370450156_2_alg».proof.Proof.LibColumn
import proofs.«120343_j70858370450156_2_alg».proof.Proof.LibMatrixLayout
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Cert.Gcn

variable (V : (c : Dev nD) → (b : Ref sig .tc) → Buf (Elt Ideal) ((c : Thread nD τ).loc b))

namespace R3

/-- The rectangles of the body's loads and store start at the origin. -/
theorem hz2 : (![0, 0] : Fin 2 → Nat) = fun _ => 0 := funext fun a => by fin_cases a <;> rfl
theorem hz1 : (![0] : Fin 1 → Nat) = fun _ => 0 := funext fun a => by fin_cases a <;> rfl

/-- A vector of 128 numbers laid out as one row and repeated down the 2000 rows of a block reads its entry q in column q. -/
theorem row_apply (v : Vec Ideal S128 .f32) (p : Fin 2000) (q : Fin 128) :
    broadcastTo S2000x128 (shapeCast S1x128 v shapeCasts_S128_S1x128) broadcasts_S1x128_S2000x128 (ix2 p q) = v (ix1 q) :=
  MatrixLayout.row_broadcast_apply v shapeCasts_S128_S1x128 broadcasts_S1x128_S2000x128 p q

/-- The scale column repeated across the 128 columns of a block reads the scale of row p in row p. -/
theorem col_apply (x : Vec Ideal S2000x1 .f32) (p : Fin 2000) (q : Fin 128) :
    broadcastTo S2000x128 (shapeCast S2000x1 x shapeCasts_S2000x1_S2000x1) broadcasts_S2000x1_S2000x128 (ix2 p q)
      = x (ix2 p (0 : Fin 1)) := by
  rw [ColumnLayout.broadcastTo_a1_ab_apply, shapeCast_self]

/-- The inverse square root of the variance plus the offset, computed on the one row and repeated down the rows, reads
    in column q the inverse square root of entry q plus the offset. -/
theorem rsqrt_row_apply (v : Vec Ideal S128 .f32) (p : Fin 2000) (q : Fin 128) :
    broadcastTo S2000x128
        (rsqrt (addf (shapeCast S1x128 v shapeCasts_S128_S1x128)
          (broadcast S1x128 (Scalar.ofBits (F := Ideal) .f32 0x3727C5AC#32))))
        broadcasts_S1x128_S2000x128 (ix2 p q)
      = Ideal.rsqrt (v (ix1 q) + epsBN) := by
  rw [broadcastTo_1b_ab_apply]
  show Ideal.rsqrt (shapeCast S1x128 v shapeCasts_S128_S1x128 (ix2 (0 : Fin 1) q) + epsBN) = _
  rw [shapeCast_a_1a_apply]

/-- The body's payload at row p and column q of a block: the scale of row p times the sum of the two row-tiled blocks'
    entries, plus the bias of column q, rectified and normalised with column q's mean, variance, scale and shift. -/
theorem pay_apply (x0 : Vec Ideal S2000x128 .f32) (x1 : Vec Ideal S2000x128 .bf16) (x2 : Vec Ideal S2000x1 .f32)
    (b g be m v : Vec Ideal S128 .f32) (p : Fin 2000) (q : Fin 128) :
    k3_pay1 x0 x1 x2 b g be m v (ix2 p q)
      = act (x2 (ix2 p (0 : Fin 1)) * (x0 (ix2 p q) + x1 (ix2 p q)) + b (ix1 q)) (m (ix1 q)) (v (ix1 q)) (g (ix1 q)) (be (ix1 q)) := by
  unfold k3_pay1 act
  simp only [addf_apply, mulf_apply, subf_apply, maximumf_apply, broadcast_apply, extf_apply]
  rw [row_apply, row_apply, row_apply, row_apply, col_apply, rsqrt_row_apply, shapeCast_self, shapeCast_self]
  rfl

/-- The block indices over the 20 grid points: the row-tiled windows (the two summands, the scale column, the result)
    are at block t of their first axis and block 0 of their second; the five parameter vectors are at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0 ∧ win3_4.index t (0 : Fin 1) = 0 ∧ win3_5.index t (0 : Fin 1) = 0
    ∧ win3_6.index t (0 : Fin 1) = 0 ∧ win3_7.index t (0 : Fin 1) = 0
    ∧ win3_8.index t (0 : Fin 2) = t.val ∧ win3_8.index t (1 : Fin 2) = 0 :=
  (by decide +kernel : ∀ t : Fin grid3.N, _)

/-- Row p of block t is a row of the array. -/
theorem row_lt (t : Fin cfg3.N) (p : Fin 2000) : t.val * 2000 + p.val < 40000 := by
  have ht : t.val < 20 := lt_of_lt_of_eq t.isLt N_3
  have hp := p.isLt
  omega

/-- Entry (p, q) of the first summand's block at point t is entry (2000 t + p, q) of its array. -/
theorem read_agg (c : Dev nD) (t : Fin cfg3.N) (p : Fin 2000) (q : Fin 128) :
    iblk3 V c 0 t (ix2 p q) = V c main_v47 (ix2 ⟨t.val * 2000 + p.val, row_lt t p⟩ q) := by
  obtain ⟨e0, e1, -⟩ := idx_facts t
  show V c main_v47 (((cfg3.win 0).blk t).view.emb (ix2 p q)) = _
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * q.val = q.val; omega

/-- Entry (p, q) of the second summand's block at point t is entry (2000 t + p, q) of its array. -/
theorem read_hws (c : Dev nD) (t : Fin cfg3.N) (p : Fin 2000) (q : Fin 128) :
    iblk3 V c 1 t (ix2 p q) = V c main_v36 (ix2 ⟨t.val * 2000 + p.val, row_lt t p⟩ q) := by
  obtain ⟨-, -, e0, e1, -⟩ := idx_facts t
  show V c main_v36 (((cfg3.win 1).blk t).view.emb (ix2 p q)) = _
  refine congrArg _ (funext fun a => Fin.ext ?_)
  match a with
  | ⟨0, _⟩ => show win3_1.index t (0 : Fin 2) * 2000 + 1 * p.val = t.val * 2000 + p.val; omega
  | ⟨1, _⟩ => show win3_1.index t (1 : Fin 2) * 128 + 1 * q.val = q.val; omega

/-- Entry (p, 0) of the scale block at point t is entry (2000 t + p, 0) of the scale column. -/
theorem read_d (c : Dev nD) (t : Fin cfg3.N) (p : Fin 2000) :
    iblk3 V c 2 t (ix2 p (0 : Fin 1)) = V c main_v11 (ix2 ⟨t.val * 2000 + p.val, row_lt t p⟩ (0 : Fin 1)) := by
  obtain ⟨-, -, -, -, e0, e1, -⟩ := idx_facts t
  show V c main_v11 (((cfg3.win 2).blk t).view.emb (ix2 p (0 : Fin 1))) = _
  refine congrArg _ (funext fun a => Fin.ext ?_)
  match a with
  | ⟨0, _⟩ => show win3_2.index t (0 : Fin 2) * 2000 + 1 * p.val = t.val * 2000 + p.val; omega
  | ⟨1, _⟩ => show win3_2.index t (1 : Fin 2) * 1 + 1 * 0 = 0; omega

/-- Each parameter vector's block at every point is the whole vector. -/
theorem read_b (c : Dev nD) (t : Fin cfg3.N) (q : Fin 128) : iblk3 V c 3 t (ix1 q) = V c main_arg16 (ix1 q) := by
  obtain ⟨-, -, -, -, -, -, e, -⟩ := idx_facts t
  show V c main_arg16 (((cfg3.win 3).blk t).view.emb (ix1 q)) = _
  refine congrArg _ (funext fun a => Fin.ext ?_)
  match a with
  | ⟨0, _⟩ => show win3_3.index t (0 : Fin 1) * 128 + 1 * q.val = q.val; omega
theorem read_g (c : Dev nD) (t : Fin cfg3.N) (q : Fin 128) : iblk3 V c 4 t (ix1 q) = V c main_arg17 (ix1 q) := by
  obtain ⟨-, -, -, -, -, -, -, e, -⟩ := idx_facts t
  show V c main_arg17 (((cfg3.win 4).blk t).view.emb (ix1 q)) = _
  refine congrArg _ (funext fun a => Fin.ext ?_)
  match a with
  | ⟨0, _⟩ => show win3_4.index t (0 : Fin 1) * 128 + 1 * q.val = q.val; omega
theorem read_be (c : Dev nD) (t : Fin cfg3.N) (q : Fin 128) : iblk3 V c 5 t (ix1 q) = V c main_arg18 (ix1 q) := by
  obtain ⟨-, -, -, -, -, -, -, -, e, -⟩ := idx_facts t
  show V c main_arg18 (((cfg3.win 5).blk t).view.emb (ix1 q)) = _
  refine congrArg _ (funext fun a => Fin.ext ?_)
  match a with
  | ⟨0, _⟩ => show win3_5.index t (0 : Fin 1) * 128 + 1 * q.val = q.val; omega
theorem read_m (c : Dev nD) (t : Fin cfg3.N) (q : Fin 128) : iblk3 V c 6 t (ix1 q) = V c main_arg19 (ix1 q) := by
  obtain ⟨-, -, -, -, -, -, -, -, -, e, -⟩ := idx_facts t
  show V c main_arg19 (((cfg3.win 6).blk t).view.emb (ix1 q)) = _
  refine congrArg _ (funext fun a => Fin.ext ?_)
  match a with
  | ⟨0, _⟩ => show win3_6.index t (0 : Fin 1) * 128 + 1 * q.val = q.val; omega
theorem read_v (c : Dev nD) (t : Fin cfg3.N) (q : Fin 128) : iblk3 V c 7 t (ix1 q) = V c main_arg20 (ix1 q) := by
  obtain ⟨-, -, -, -, -, -, -, -, -, -, e, -⟩ := idx_facts t
  show V c main_arg20 (((cfg3.win 7).blk t).view.emb (ix1 q)) = _
  refine congrArg _ (funext fun a => Fin.ext ?_)
  match a with
  | ⟨0, _⟩ => show win3_7.index t (0 : Fin 1) * 128 + 1 * q.val = q.val; omega

/-- Entry (p, q) of the result's block at point t sits at (2000 t + p, q) of the result array. -/
theorem emb_out (t : Fin cfg3.N) (p : Fin 2000) (q : Fin 128) :
    (((cfg3.win 8).blk t).view.emb (ix2 p q) : S40000x128.Idx) = ix2 ⟨t.val * 2000 + p.val, row_lt t p⟩ q := by
  obtain ⟨-, -, -, -, -, -, -, -, -, -, -, e0, e1⟩ := idx_facts t
  refine funext fun a => Fin.ext ?_
  match a with
  | ⟨0, _⟩ => show win3_8.index t (0 : Fin 2) * 2000 + 1 * p.val = t.val * 2000 + p.val; omega
  | ⟨1, _⟩ => show win3_8.index t (1 : Fin 2) * 128 + 1 * q.val = q.val; omega

/-- What point t writes back is block t of the layer's activations computed from the arrays as the region finds them. -/
theorem flushed_eq (c : Dev nD) (t : Fin cfg3.N) :
    (dat3 (F := Ideal) V c).flushed 8 t
      = ((cfg3.win 8).blk t).view.read (Elt Ideal)
          (epilogue (V c main_v47) (V c main_v36) (V c main_v11) (V c main_arg16) (V c main_arg17) (V c main_arg18)
            (V c main_arg19) (V c main_arg20)) := by
  show (cfg3.win 8).cut (grid3.coords t) ((dat3 V c).after 8 t) = _
  rw [after3_8]
  unfold out3_8
  rw [View.canon_unit_zero hz2]
  simp only [View.ld_unit_zero (S := S2000x128) hz2, View.ld_unit_zero (S := S2000x1) hz2, View.ld_unit_zero (S := S128) hz1]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (iblk3 V c 4 t) (iblk3 V c 5 t)
      (iblk3 V c 6 t) (iblk3 V c 7 t) (ix2 p q)
    = epilogue (V c main_v47) (V c main_v36) (V c main_v11) (V c main_arg16) (V c main_arg17) (V c main_arg18)
        (V c main_arg19) (V c main_arg20) (((cfg3.win 8).blk t).view.emb (ix2 p q))
  rw [emb_out t p q, epilogue_ix2]
  refine (pay_apply _ _ _ _ _ _ _ _ p q).trans ?_
  unfold epilogueC
  rw [read_agg V c t p q, read_hws V c t p q, read_d V c t p, read_b V c t q, read_g V c t q, read_be V c t q,
    read_m V c t q, read_v V c t q]

/-- An index of the result array is in point t's block iff each coordinate is in the block's range on its axis. -/
theorem mem_blk (t : Fin cfg3.N) (i : S40000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v48).slice (win3_8.rect t)).set ↔ _
  rw [View.set_slice_whole, Rect.mem_set_unit]
  exact Iff.rfl

/-- Row r of the result array is in the block of point r / 2000: the 20 blocks of 2000 rows tile the 40000 rows. -/
theorem cover (i : S40000x128.Idx) :
    ∃ t : Fin cfg3.N, (cfg3.win 8).flush t = true ∧ i ∈ ((cfg3.win 8).blk t).view.set := by
  have hi0 : (i 0).val < 40000 := (i 0).isLt
  have hi1 : (i 1).val < 128 := (i 1).isLt
  have ht : (i 0).val / 2000 < cfg3.N := by
    show (i 0).val / 2000 < grid3.N
    rw [N_3]; omega
  obtain ⟨-, -, -, -, -, -, -, -, -, -, -, e0, e1⟩ := idx_facts ⟨(i 0).val / 2000, ht⟩
  refine ⟨⟨(i 0).val / 2000, ht⟩, flush3_8 _, ?_⟩
  rw [mem_blk]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    rw [e1]; omega

end R3

/-- The result array of region 3 after its 20 points: the layer's activations, computed from the two summand arrays,
    the scale column and the five parameter vectors as the region finds them. -/
theorem final3 (c : Dev nD) :
    ((dat3 (F := Ideal) V c).arrAt 8 cfg3.N : Mat 40000 128)
      = epilogue (V c main_v47) (V c main_v36) (V c main_v11) (V c main_arg16) (V c main_arg17) (V c main_arg18) (V c main_arg19) (V c main_arg20) :=
  (dat3 (F := Ideal) V c).arrAt_eq_of_cover 8 _ (fun t _ => R3.flushed_eq V c t) R3.cover
end Cert.KernelIdeal.Val
end
-- ==== Proof.KValue.lean ====
/-
  The idealized kernel program's returned array as one function of its arguments.

  With d the column of inverse-root degrees and src, dst the edges' endpoints: the first launch leaves the scaled
  product (x W1) d; each stretch between launches sums the rows of the last scaled product along the edges; the
  second and third launches turn the sums and the last product into the next layer's scaled product; the fourth
  into the third layer's activations; the last stretch reads them out. Each launch's arrays are what the stretch
  before it left, and each stretch's operands what the launches and stretches before it left.
-/
import proofs.«120343_j70858370450156_2_alg».proof.Proof.Walk
import proofs.«120343_j70858370450156_2_alg».proof.Proof.Host
import proofs.«120343_j70858370450156_2_alg».proof.Proof.Region0
import proofs.«120343_j70858370450156_2_alg».proof.Proof.Region1
import proofs.«120343_j70858370450156_2_alg».proof.Proof.Region2
import proofs.«120343_j70858370450156_2_alg».proof.Proof.Region3

noncomputable section

namespace Cert.KernelIdeal.Val

open Cert.KernelIdeal Cert.KernelIdeal.Gen
open Idealize.ShloMosaic Idealize.ShloMosaic.TcCoe Idealize.SL.Sem Idealize.ShloMosaic.StableHlo
open Cert.Gcn

/-! ## The stages as functions of the arguments -/

/-- The first layer's scaled product. -/
def hws1 (a0 : FVec Ideal S40000x512 .f32) (a1 : IVec S2x640000 32) (a3 : FVec Ideal S512x128 .f32) : FVec Ideal S40000x128 .bf16 :=
  scaledProduct a0 a3 (dinvColOf a1)

/-- The second layer's scaled product. -/
def hws2 (a0 : FVec Ideal S40000x512 .f32) (a1 : IVec S2x640000 32) (a3 : FVec Ideal S512x128 .f32) (a4 : FVec Ideal S128 .f32) (a5 : FVec Ideal S128 .f32) (a6 : FVec Ideal S128 .f32) (a7 : FVec Ideal S128 .f32) (a8 : FVec Ideal S128 .f32) (a9 : FVec Ideal S128x128 .f32) : FVec Ideal S40000x128 .bf16 :=
  fused (aggOf (hws1 a0 a1 a3) (srcOf a1) (dstOf a1)) (hws1 a0 a1 a3) (dinvColOf a1) a4 a5 a6 a7 a8 a9

/-- The third layer's scaled product. -/
def hws3 (a0 : FVec Ideal S40000x512 .f32) (a1 : IVec S2x640000 32) (a3 : FVec Ideal S512x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128 .f32) (a12 : FVec Ideal S128 .f32) (a13 : FVec Ideal S128 .f32) (a14 : FVec Ideal S128 .f32) (a15 : FVec Ideal S128x128 .f32) : FVec Ideal S40000x128 .bf16 :=
  fused (aggOf (hws2 a0 a1 a3 a4 a5 a6 a7 a8 a9) (srcOf a1) (dstOf a1)) (hws2 a0 a1 a3 a4 a5 a6 a7 a8 a9) (dinvColOf a1) a10 a11 a12 a13 a14 a15

/-- The third layer's activations. -/
def acts3 (a0 : FVec Ideal S40000x512 .f32) (a1 : IVec S2x640000 32) (a3 : FVec Ideal S512x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128 .f32) (a12 : FVec Ideal S128 .f32) (a13 : FVec Ideal S128 .f32) (a14 : FVec Ideal S128 .f32) (a15 : FVec Ideal S128x128 .f32) (a16 : FVec Ideal S128 .f32) (a17 : FVec Ideal S128 .f32) (a18 : FVec Ideal S128 .f32) (a19 : FVec Ideal S128 .f32) (a20 : FVec Ideal S128 .f32) : FVec Ideal S40000x128 .f32 :=
  epilogue (aggOf (hws3 a0 a1 a3 a4 a5 a6 a7 a8 a9 a10 a11 a12 a13 a14 a15) (srcOf a1) (dstOf a1)) (hws3 a0 a1 a3 a4 a5 a6 a7 a8 a9 a10 a11 a12 a13 a14 a15) (dinvColOf a1) a16 a17 a18 a19 a20

/-- The returned array. -/
def kernelOut (a0 : FVec Ideal S40000x512 .f32) (a1 : IVec S2x640000 32) (a2 : IVec S40000 32) (a3 : FVec Ideal S512x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128 .f32) (a12 : FVec Ideal S128 .f32) (a13 : FVec Ideal S128 .f32) (a14 : FVec Ideal S128 .f32) (a15 : FVec Ideal S128x128 .f32) (a16 : FVec Ideal S128 .f32) (a17 : FVec Ideal S128 .f32) (a18 : FVec Ideal S128 .f32) (a19 : FVec Ideal S128 .f32) (a20 : FVec Ideal S128 .f32) (a21 : FVec Ideal S128x2 .f32) (a22 : FVec Ideal S2 .f32) : FVec Ideal S64x2 .f32 :=
  tailOf (acts3 a0 a1 a3 a4 a5 a6 a7 a8 a9 a10 a11 a12 a13 a14 a15 a16 a17 a18 a19 a20) a2 a21 a22

variable (m : (ℓ : Loc nD τ sig) → Buf (Elt Ideal) ℓ) (ρ : Dev nD → PrngReg)

/-! ## What the first stretch leaves -/

theorem V1_arg0 (c : Dev nD) : V1 m ρ c main_arg0 = (m ((c : Thread nD τ).loc main_arg0)) := W1_main_arg0 m ρ c
theorem V1_arg3 (c : Dev nD) : V1 m ρ c main_arg3 = (m ((c : Thread nD τ).loc main_arg3)) := W1_main_arg3 m ρ c
theorem V1_v11 (c : Dev nD) : V1 m ρ c main_v11 = dinvColOf (m ((c : Thread nD τ).loc main_arg1)) := host0_v11 (W0 m ρ c)
theorem W1_v1 (c : Dev nD) : W1 m ρ c (Proc.devRef .tc main_v1) = srcOf (m ((c : Thread nD τ).loc main_arg1)) := host0_v1 (W0 m ρ c)
theorem W1_v3 (c : Dev nD) : W1 m ρ c (Proc.devRef .tc main_v3) = dstOf (m ((c : Thread nD τ).loc main_arg1)) := host0_v3 (W0 m ρ c)

/-! ## The first launch and the stretch after it -/

theorem W2_v12_val (c : Dev nD) : W2 m ρ c (Proc.devRef .tc main_v12) = hws1 (m ((c : Thread nD τ).loc main_arg0)) (m ((c : Thread nD τ).loc main_arg1)) (m ((c : Thread nD τ).loc main_arg3)) := by
  refine (W2_arr m ρ c 3).trans ((final0 (V1 m ρ) c).trans ?_)
  rw [V1_arg0, V1_arg3, V1_v11]
  rfl

theorem W3_v23_val (c : Dev nD) : W3 m ρ c (Proc.devRef .tc main_v23)
    = aggOf (hws1 (m ((c : Thread nD τ).loc main_arg0)) (m ((c : Thread nD τ).loc main_arg1)) (m ((c : Thread nD τ).loc main_arg3))) (srcOf (m ((c : Thread nD τ).loc main_arg1))) (dstOf (m ((c : Thread nD τ).loc main_arg1))) := by
  refine (host1_v23 (W2 m ρ c)).trans ?_
  rw [W2_v12_val, W2_v1 m ρ c, W2_v3 m ρ c, W1_v1, W1_v3]

/-! ## The second launch and the stretch after it -/

theorem V3_v23 (c : Dev nD) : V3 m ρ c main_v23 = aggOf (hws1 (m ((c : Thread nD τ).loc main_arg0)) (m ((c : Thread nD τ).loc main_arg1)) (m ((c : Thread nD τ).loc main_arg3))) (srcOf (m ((c : Thread nD τ).loc main_arg1))) (dstOf (m ((c : Thread nD τ).loc main_arg1))) := W3_v23_val m ρ c
theorem V3_v12 (c : Dev nD) : V3 m ρ c main_v12 = hws1 (m ((c : Thread nD τ).loc main_arg0)) (m ((c : Thread nD τ).loc main_arg1)) (m ((c : Thread nD τ).loc main_arg3)) := (W3_v12 m ρ c).trans (W2_v12_val m ρ c)
theorem V3_v11 (c : Dev nD) : V3 m ρ c main_v11 = dinvColOf (m ((c : Thread nD τ).loc main_arg1)) := (W3_v11 m ρ c).trans (V1_v11 m ρ c)
theorem V3_arg4 (c : Dev nD) : V3 m ρ c main_arg4 = (m ((c : Thread nD τ).loc main_arg4)) := W3_main_arg4 m ρ c
theorem V3_arg5 (c : Dev nD) : V3 m ρ c main_arg5 = (m ((c : Thread nD τ).loc main_arg5)) := W3_main_arg5 m ρ c
theorem V3_arg6 (c : Dev nD) : V3 m ρ c main_arg6 = (m ((c : Thread nD τ).loc main_arg6)) := W3_main_arg6 m ρ c
theorem V3_arg7 (c : Dev nD) : V3 m ρ c main_arg7 = (m ((c : Thread nD τ).loc main_arg7)) := W3_main_arg7 m ρ c
theorem V3_arg8 (c : Dev nD) : V3 m ρ c main_arg8 = (m ((c : Thread nD τ).loc main_arg8)) := W3_main_arg8 m ρ c
theorem V3_arg9 (c : Dev nD) : V3 m ρ c main_arg9 = (m ((c : Thread nD τ).loc main_arg9)) := W3_main_arg9 m ρ c

theorem W4_v24_val (c : Dev nD) : W4 m ρ c (Proc.devRef .tc main_v24) = hws2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 9).trans ((final1 (V3 m ρ) c).trans ?_)
  rw [V3_v23, V3_v12, V3_v11, V3_arg4, V3_arg5, V3_arg6, V3_arg7, V3_arg8, V3_arg9]
  rfl

theorem W5_v35_val (c : Dev nD) : W5 m ρ c (Proc.devRef .tc main_v35)
    = aggOf (hws2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (srcOf (m ((c : Thread nD τ).loc main_arg1))) (dstOf (m ((c : Thread nD τ).loc main_arg1))) := by
  refine (host2_v35 (W4 m ρ c)).trans ?_
  rw [W4_v24_val, W4_v1 m ρ c, W4_v3 m ρ c, W1_v1, W1_v3]

/-! ## The third launch and the stretch after it -/

theorem V5_v35 (c : Dev nD) : V5 m ρ c main_v35 = aggOf (hws2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (srcOf (m ((c : Thread nD τ).loc main_arg1))) (dstOf (m ((c : Thread nD τ).loc main_arg1))) := W5_v35_val m ρ c
theorem V5_v24 (c : Dev nD) : V5 m ρ c main_v24 = hws2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (W5_v24 m ρ c).trans (W4_v24_val m ρ c)
theorem V5_v11 (c : Dev nD) : V5 m ρ c main_v11 = dinvColOf (m ((c : Thread nD τ).loc main_arg1)) := (W5_v11 m ρ c).trans (V1_v11 m ρ c)
theorem V5_arg10 (c : Dev nD) : V5 m ρ c main_arg10 = (m ((c : Thread nD τ).loc main_arg10)) := W5_main_arg10 m ρ c
theorem V5_arg11 (c : Dev nD) : V5 m ρ c main_arg11 = (m ((c : Thread nD τ).loc main_arg11)) := W5_main_arg11 m ρ c
theorem V5_arg12 (c : Dev nD) : V5 m ρ c main_arg12 = (m ((c : Thread nD τ).loc main_arg12)) := W5_main_arg12 m ρ c
theorem V5_arg13 (c : Dev nD) : V5 m ρ c main_arg13 = (m ((c : Thread nD τ).loc main_arg13)) := W5_main_arg13 m ρ c
theorem V5_arg14 (c : Dev nD) : V5 m ρ c main_arg14 = (m ((c : Thread nD τ).loc main_arg14)) := W5_main_arg14 m ρ c
theorem V5_arg15 (c : Dev nD) : V5 m ρ c main_arg15 = (m ((c : Thread nD τ).loc main_arg15)) := W5_main_arg15 m ρ c

theorem W6_v36_val (c : Dev nD) : W6 m ρ c (Proc.devRef .tc main_v36) = hws3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 9).trans ((final2 (V5 m ρ) c).trans ?_)
  rw [V5_v35, V5_v24, V5_v11, V5_arg10, V5_arg11, V5_arg12, V5_arg13, V5_arg14, V5_arg15]
  rfl

theorem W7_v47_val (c : Dev nD) : W7 m ρ c (Proc.devRef .tc main_v47)
    = aggOf (hws3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (srcOf (m ((c : Thread nD τ).loc main_arg1))) (dstOf (m ((c : Thread nD τ).loc main_arg1))) := by
  refine (host3_v47 (W6 m ρ c)).trans ?_
  rw [W6_v36_val, W6_v1 m ρ c, W6_v3 m ρ c, W1_v1, W1_v3]

/-! ## The fourth launch and the readout -/

theorem V7_v47 (c : Dev nD) : V7 m ρ c main_v47 = aggOf (hws3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (srcOf (m ((c : Thread nD τ).loc main_arg1))) (dstOf (m ((c : Thread nD τ).loc main_arg1))) := W7_v47_val m ρ c
theorem V7_v36 (c : Dev nD) : V7 m ρ c main_v36 = hws3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := (W7_v36 m ρ c).trans (W6_v36_val m ρ c)
theorem V7_v11 (c : Dev nD) : V7 m ρ c main_v11 = dinvColOf (m ((c : Thread nD τ).loc main_arg1)) := (W7_v11 m ρ c).trans (V1_v11 m ρ c)
theorem V7_arg16 (c : Dev nD) : V7 m ρ c main_arg16 = (m ((c : Thread nD τ).loc main_arg16)) := W7_main_arg16 m ρ c
theorem V7_arg17 (c : Dev nD) : V7 m ρ c main_arg17 = (m ((c : Thread nD τ).loc main_arg17)) := W7_main_arg17 m ρ c
theorem V7_arg18 (c : Dev nD) : V7 m ρ c main_arg18 = (m ((c : Thread nD τ).loc main_arg18)) := W7_main_arg18 m ρ c
theorem V7_arg19 (c : Dev nD) : V7 m ρ c main_arg19 = (m ((c : Thread nD τ).loc main_arg19)) := W7_main_arg19 m ρ c
theorem V7_arg20 (c : Dev nD) : V7 m ρ c main_arg20 = (m ((c : Thread nD τ).loc main_arg20)) := W7_main_arg20 m ρ c

theorem W8_v48_val (c : Dev nD) : W8 m ρ c (Proc.devRef .tc main_v48) = acts3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W8_arr m ρ c 8).trans ((final3 (V7 m ρ) c).trans ?_)
  rw [V7_v47, V7_v36, V7_v11, V7_arg16, V7_arg17, V7_arg18, V7_arg19, V7_arg20]
  rfl

/-- THE RETURNED ARRAY at the last boundary is the closed function of the launch arguments. -/
theorem W9_v64_val (c : Dev nD) : W9 m ρ c (Proc.devRef .tc main_v64) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (host4_v64 (W8 m ρ c)).trans ?_
  rw [W8_v48_val, W8_main_arg2, W8_main_arg21, W8_main_arg22]
  rfl

end Cert.KernelIdeal.Val

end
-- ==== Proof.LibRowOps.lean ====
/-
  Whole rows gathered from, and added into, a matrix — `jnp`'s `x[idx]` of a matrix `x : [N, C]` at a list of `E` row
  numbers, and `segment_sum` of an `[E, C]` matrix of rows into `N` segments — read at an index given by coordinates.

  * The gather (offset axis 1, collapsed axis 0, the start index one signed word per row of an `[E, 1]` array, slices
    `1 × C`): entry `(e, c)` of the result is `x` at row `idx[e, 0]`, read signed and clamped into `[0, N − 1]`,
    column `c`.
  * The accumulating scatter at the ideal instance (window axis 1, inserted axis 0, the row number one signed word per
    update row, not clamped): entry `(n, c)` of the result is the operand's entry plus the sum, over the update rows `e`
    whose word IS `n`, of the update's entry `(e, c)`. A row whose word is negative or at least `N` is dropped: it equals
    no `n`.

  Both for every `N`, `E`, `C`: a printed record with these lists is the record below (its well-formedness field is a
  proposition), so the lemmas apply to it after `show … = _ from rfl`.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

variable {N E C w : Nat}

/-- An axis is kept exactly when it is not in the list. -/
theorem mem_kept {s : Shape} (axes : List (Fin s.rank)) (a : Fin s.rank) : a ∈ s.kept axes ↔ a ∉ axes := by
  simp [Shape.kept, List.mem_filter, List.mem_finRange]

/-- Axis 1 is not in the list `[0]`. -/
theorem one_not_mem {s : Shape} (h : s.rank = 2) : (⟨1, by omega⟩ : Fin s.rank) ∉ [(⟨0, by omega⟩ : Fin s.rank)] :=
  fun hm => absurd (congrArg Fin.val (List.mem_singleton.mp hm)) Nat.one_ne_zero

/-! ## Rows gathered -/

/-- The dimension numbers of a gather of whole rows. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gathered row comes from: the start word read signed, clamped into `[0, N − 1]`. -/
def srcRow (hN : 0 < N) (idx : IVec ⟨2, ![E, 1]⟩ w) (e : Fin E) : Fin N :=
  ⟨min (idx (ix2 e (0 : Fin 1))).toInt.toNat (N - 1), by omega⟩

/-- THE GATHER READ AT `(e, c)`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, C]⟩ : Shape).rank) ∈ (rowGatherDims N E C wf).startIndexMap from List.mem_singleton.mpr rfl)]
    have hsi : (rowGatherDims N E C wf).siIdx (ix2 e c) ⟨List.idxOf (0 : Fin (⟨2, ![N, C]⟩ : Shape).rank) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show ¬ (1 : Fin (⟨2, ![N, C]⟩ : Shape).rank) ∈ (rowGatherDims N E C wf).startIndexMap from one_not_mem rfl)]
    simp only [Nat.zero_add, Nat.add_zero]
    rfl

/-! ## Rows added in -/

/-- The dimension numbers of a scatter of whole rows. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable (wf : ScatterDims.WF ⟨2, ![N, C]⟩ ⟨2, ![E, 1]⟩ ⟨2, ![E, C]⟩ [1] [0] [0] 1) (idx : IVec ⟨2, ![E, 1]⟩ w)

theorem start_row (e : Fin E) (c' : Fin C) :
    (rowScatterDims N E C wf).start (ix2 e c') idx 0 = (idx (ix2 e (0 : Fin 1))).toInt := by
  unfold ScatterDims.start
  rw [dif_pos (show (0 : Fin (⟨2, ![N, C]⟩ : Shape).rank) ∈ (rowScatterDims N E C wf).scatterDimsToOperandDims from List.mem_singleton.mpr rfl)]
  have hsi : (rowScatterDims N E C wf).siIdx (ix2 e c') ⟨List.idxOf (0 : Fin (⟨2, ![N, C]⟩ : Shape).rank) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (e : Fin E) (c' : Fin C) : (rowScatterDims N E C wf).start (ix2 e c') idx 1 = 0 := by
  unfold ScatterDims.start
  rw [dif_neg (show ¬ (1 : Fin (⟨2, ![N, C]⟩ : Shape).rank) ∈ (rowScatterDims N E C wf).scatterDimsToOperandDims from one_not_mem rfl)]

theorem window_row (e : Fin E) (c' : Fin C) : (rowScatterDims N E C wf).window (ix2 e c') 0 = 0 := by
  unfold ScatterDims.window
  rw [dif_neg (show ¬ (0 : Fin (⟨2, ![N, C]⟩ : Shape).rank) ∈ (rowScatterDims N E C wf).sKept from fun h => (mem_kept _ _).mp h (List.mem_singleton.mpr rfl))]

theorem window_col (e : Fin E) (c' : Fin C) : (rowScatterDims N E C wf).window (ix2 e c') 1 = c'.val := by
  unfold ScatterDims.window
  rw [dif_pos (show (1 : Fin (⟨2, ![N, C]⟩ : Shape).rank) ∈ (rowScatterDims N E C wf).sKept from (mem_kept _ _).mpr (one_not_mem rfl))]
  rfl

/-- Update entry `(e, c')` lands on `(n, c)` exactly when it is in column `c` and row `e`'s word is `n`. -/
theorem resultIdx?_rows (e : Fin E) (c' : Fin C) (n : Fin N) (c : Fin C) :
    (rowScatterDims N E C wf).resultIdx? (ix2 e c') idx = some (ix2 n c)
      ↔ c' = c ∧ (idx (ix2 e (0 : Fin 1))).toInt = (n.val : Int) := by
  have hn : n.val < N := n.isLt
  have hc : c.val < C := c.isLt
  have hc' : c'.val < C := c'.isLt
  unfold ScatterDims.resultIdx?
  split
  · rename_i h
    rw [Option.some.injEq]
    have h0 := h 0
    have h1 := h 1
    rw [start_row, window_row] at h0
    rw [start_col, window_col] at h1
    constructor
    · intro hf
      have e0 : ((rowScatterDims N E C wf).start (ix2 e c') idx 0 + ((rowScatterDims N E C wf).window (ix2 e c') 0 : Int)).toNat = n.val :=
        congrArg (fun f : (⟨2, ![N, C]⟩ : Shape).Idx => (f 0).val) hf
      have e1 : ((rowScatterDims N E C wf).start (ix2 e c') idx 1 + ((rowScatterDims N E C wf).window (ix2 e c') 1 : Int)).toNat = c.val :=
        congrArg (fun f : (⟨2, ![N, C]⟩ : Shape).Idx => (f 1).val) hf
      rw [start_row, window_row] at e0
      rw [start_col, window_col] at e1
      exact ⟨Fin.ext (by omega), by omega⟩
    · rintro ⟨rfl, hw⟩
      funext a
      refine Fin.ext ?_
      match a with
      | ⟨0, _⟩ =>
        show ((rowScatterDims N E C wf).start (ix2 e c') idx 0 + ((rowScatterDims N E C wf).window (ix2 e c') 0 : Int)).toNat = n.val
        rw [start_row, window_row]; omega
      | ⟨1, _⟩ =>
        show ((rowScatterDims N E C wf).start (ix2 e c') idx 1 + ((rowScatterDims N E C wf).window (ix2 e c') 1 : Int)).toNat = c'.val
        rw [start_col, window_col]; omega
  · rename_i h
    constructor
    · intro hf; exact absurd hf (by simp)
    · rintro ⟨rfl, hw⟩
      exfalso
      apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [start_row, window_row]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [start_col, window_col]; omega

/-- THE ACCUMULATING SCATTER READ AT `(n, c)`, at the ideal instance. -/
theorem scatterAdd_rows_apply (x : (⟨2, ![N, C]⟩ : Shape).Idx → EReal) (upd : (⟨2, ![E, C]⟩ : Shape).Idx → EReal)
    (n : Fin N) (c : Fin C) :
    Host.scatterAdd (F := Ideal) (φ := .f32) (rowScatterDims N E C wf) x idx upd (ix2 n c)
      = x (ix2 n c) + ∑ e : Fin E, if (idx (ix2 e (0 : Fin 1))).toInt = (n.val : Int) then upd (ix2 e c) else 0 := by
  show x (ix2 n c) + ∑ j ∈ Finset.univ.filter (fun j => (rowScatterDims N E C wf).resultIdx? j idx = some (ix2 n c)), upd j = _
  congr 1
  rw [Finset.sum_filter, sum_idx2]
  refine Finset.sum_congr rfl fun e _ => ?_
  simp only [resultIdx?_rows]
  by_cases hw : (idx (ix2 e (0 : Fin 1))).toInt = (n.val : Int)
  · simp only [hw, and_true, if_true]
    rw [Finset.sum_ite_eq' Finset.univ c (fun c' => upd (ix2 e c'))]
    simp
  · simp only [hw, and_false, if_false, Finset.sum_const_zero]

end Scatter

end Idealize.ShloMosaic.RowOps

end
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.KAt.lean ====
/-
  The host stretches read at an entry.

  The summed rows: entry (n, k) of the array a stretch between launches leaves is the sum, over the edges whose
  destination word is n, of entry k of the scaled product's row at the edge's source (a negative source word
  counted from the end, then clamped into the node range).

  The degrees: node n's degree is one plus the number of edges that end in it, a real number at least one, so its
  inverse square root is a nonnegative real — finite whatever the inputs are. This is what lets a node's factor
  move across the sums of a layer.
-/
import proofs.«120343_j70858370450156_2_alg».proof.Proof.Host
import proofs.«120343_j70858370450156_2_alg».proof.Proof.LibRowOps
import proofs.«120343_j70858370450156_2_alg».proof.Proof.LibBroadcastInDim
import proofs.«120343_j70858370450156_2_alg».proof.Proof.LibColumn
import Idealize.ShloMosaic.PureOps.Ideal.Laws
import Idealize.ShloMosaic.Lib.ValueIdx

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx

/-- The float word of one denotes the real one. -/
theorem one_f32 : Ideal.ofBits .f32 1065353216#32 = (1 : EReal) := by
  simp [Ideal.ofBits, Ideal.ieee, -EReal.coe_mul]; norm_num

/-! ## The summed rows -/

/-- Entry (n, k) of the rows of hws gathered at the sources and summed at the destinations. -/
theorem aggOf_apply (hws : FVec Ideal S40000x128 .bf16) (src dst : IVec S640000 32) (n : Fin 40000) (k : Fin 128) :
    aggOf hws src dst (ix2 n k)
      = Ideal.ofBits .f32 0#32 + ∑ e : Fin 640000, if (dstCol dst (ix2 e (0 : Fin 1))).toInt = (n.val : Int)
          then hws (ix2 (RowOps.srcRow (N := 40000) (by decide) (srcCol src) e) k) else 0 := by
  unfold aggOf
  rw [show scatter_S40000x128_S640000x1_S640000x128_1_0_0_1
        = RowOps.rowScatterDims 40000 640000 128 scatter_S40000x128_S640000x1_S640000x128_1_0_0_1_wf from rfl,
    show gather_S40000x128_S640000x1_S640000x128_1_0_n_n_0_1_1128
        = RowOps.rowGatherDims 40000 640000 128 gather_S40000x128_S640000x1_S640000x128_1_0_n_n_0_1_1128_wf from rfl,
    RowOps.scatterAdd_rows_apply]
  refine congrArg₂ (· + ·) ((BroadcastInDimAt.scalar_apply _ _ _).trans rfl) (Finset.sum_congr rfl fun e _ => ?_)
  refine if_congr Iff.rfl ?_ rfl
  exact RowOps.gather_rows_apply (by decide) _ hws (srcCol src) e k

/-! ## The degrees and their inverse roots -/

/-- A finite sum of ones is a nonnegative real. -/
theorem sum_ones_real {ι : Type*} (S : Finset ι) : ∃ c : ℝ, 0 ≤ c ∧ (0 : EReal) + ∑ _j ∈ S, (1 : EReal) = (c : EReal) := by
  classical
  refine ⟨∑ _j ∈ S, (1 : ℝ), Finset.sum_nonneg (fun _ _ => zero_le_one), ?_⟩
  rw [zero_add]
  induction S using Finset.induction_on with
  | empty => simp
  | insert a s ha ih => rw [Finset.sum_insert ha, Finset.sum_insert ha, ih, EReal.coe_add, EReal.coe_one]

/-- The number of edges ending in each node, as the scatter of ones computes it. -/
def cntOf (x1 : IVec S2x640000 32) : FVec Ideal S40000 .f32 :=
  Host.scatterAdd (F := Ideal) (φ := .f32) scatter_S40000_S640000x1_S640000_n_0_0_1
    (broadcastInDim S40000 ![] bcast_S_S40000 (constant (F := Ideal) S_ FTy.f32 0#32))
    (dstCol (dstOf x1))
    (broadcastInDim S640000 ![] bcast_S_S640000 (constant (F := Ideal) S_ FTy.f32 1065353216#32))

/-- The array of ones the degree adds for the node itself. -/
def onesN : FVec Ideal S40000 .f32 :=
  broadcastInDim S40000 ![] bcast_S_S40000 (constant (F := Ideal) S_ FTy.f32 1065353216#32)

theorem dinvOf_unfold (x1 : IVec S2x640000 32) : dinvOf x1 = Host.rsqrt (F := Ideal) (addf (cntOf x1) onesN) := rfl

/-- The host's inverse square root, entry by entry. -/
theorem hostRsqrt_apply {s : Shape} (x : FVec Ideal s .f32) (i : s.Idx) : Host.rsqrt (F := Ideal) x i = Ideal.rsqrt (x i) := rfl

/-- Every entry of the array of ones is the real one. -/
theorem onesN_apply (n : Fin 40000) : onesN (ix1 n) = ((1 : ℝ) : EReal) := by
  unfold onesN
  exact (BroadcastInDimAt.scalar_apply _ bcast_S_S40000 _).trans (one_f32.trans EReal.coe_one.symm)

/-- The count is a nonnegative real. -/
theorem count_real (x1 : IVec S2x640000 32) (n : Fin 40000) : ∃ c : ℝ, 0 ≤ c ∧ cntOf x1 (ix1 n) = (c : EReal) := by
  unfold cntOf
  show ∃ c : ℝ, 0 ≤ c ∧ (broadcastInDim S40000 ![] bcast_S_S40000 (constant (F := Ideal) S_ FTy.f32 0#32)) (ix1 n)
      + ∑ j ∈ Finset.univ.filter (fun j => scatter_S40000_S640000x1_S640000_n_0_0_1.resultIdx? j (dstCol (dstOf x1)) = some (ix1 n)),
          (broadcastInDim S640000 ![] bcast_S_S640000 (constant (F := Ideal) S_ FTy.f32 1065353216#32)) j = (c : EReal)
  rw [show (broadcastInDim S40000 ![] bcast_S_S40000 (constant (F := Ideal) S_ FTy.f32 0#32)) (ix1 n) = (0 : EReal) from
      (BroadcastInDimAt.scalar_apply _ _ _).trans Ideal.ofBits_zero_f32,
    Finset.sum_congr rfl (fun j _ => (BroadcastInDimAt.scalar_apply _ bcast_S_S640000 j).trans one_f32)]
  exact sum_ones_real _

/-- Node n's inverse-root degree is a nonnegative real. -/
theorem dinvOf_real (x1 : IVec S2x640000 32) (n : Fin 40000) : ∃ r : ℝ, 0 ≤ r ∧ dinvOf x1 (ix1 n) = (r : EReal) := by
  obtain ⟨c, hc, hS⟩ := count_real x1 n
  refine ⟨(Real.sqrt (c + 1))⁻¹, inv_nonneg.mpr (Real.sqrt_nonneg _), ?_⟩
  rw [dinvOf_unfold, hostRsqrt_apply, addf_apply, hS, onesN_apply, ← EReal.coe_add, Ideal.rsqrt_coe,
    if_neg (by linarith), if_neg (by linarith)]

/-- A node's factor is nonnegative and finite. -/
theorem dinvOf_nonneg (x1 : IVec S2x640000 32) (n : Fin 40000) : 0 ≤ dinvOf x1 (ix1 n) ∧ dinvOf x1 (ix1 n) ≠ ⊤ := by
  obtain ⟨r, hr, h⟩ := dinvOf_real x1 n
  rw [h]
  exact ⟨EReal.coe_nonneg.mpr hr, EReal.coe_ne_top r⟩

/-- The column the kernels read holds the same factors. -/
theorem dinvColOf_apply (x1 : IVec S2x640000 32) (n : Fin 40000) :
    dinvColOf x1 (ix2 n (0 : Fin 1)) = dinvOf x1 (ix1 n) :=
  ColumnLayout.shapeCast_a_a1_apply _ _ n 0

end Cert.KernelIdeal.Val

end
-- ==== Proof.RefLayer.lean ====
/-
  The reference program's three layers are one function applied three times, and its readout another.

  A layer takes the product hw of the previous activations with the layer's weights, the edges' factors ne (the
  product of the inverse-root degrees at an edge's two ends), the nodes' own factors sn (the square of a node's
  inverse-root degree), the two columns of row words (sources for the gather, destinations for the scatter) and the
  five parameter vectors: it gathers the rows of hw at the sources, scales each by its edge's factor, sums them at
  the destinations, adds hw scaled by the nodes' factors and the bias, rectifies, and normalises each column.
  The stages of the reference, as its operations compose them, are these functions of the stages before them.
-/
import proofs.«120343_j70858370450156_2_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- One layer, from the weighted features to the normalised activations. -/
def layer (hw : (⟨S40000x128, .f32⟩ : BufTy).Contents (Elt F)) (ne : (⟨S640000, .f32⟩ : BufTy).Contents (Elt F)) (sn : (⟨S40000, .f32⟩ : BufTy).Contents (Elt F))
    (srcC dstC : (⟨S640000x1, .i32⟩ : BufTy).Contents (Elt F)) (b g be m v : (⟨S128, .f32⟩ : BufTy).Contents (Elt F)) : (⟨S40000x128, .f32⟩ : BufTy).Contents (Elt F) :=
  addf (mulf (mulf (subf (maximumf (addf (addf (Host.scatterAdd scatter_S40000x128_S640000x1_S640000x128_1_0_0_1 (broadcastInDim S40000x128 ![] bcast_S_S40000x128 (constant S_ .f32 0x00000000#32)) dstC (mulf (Host.gather gather_S40000x128_S640000x1_S640000x128_1_0_n_n_0_1_1128 hw srcC) (broadcastInDim S640000x128 ![0, 1] bcast_S640000x1_S640000x128_0_1 (broadcastInDim S640000x1 ![0] bcast_S640000_S640000x1_0 ne)))) (mulf hw (broadcastInDim S40000x128 ![0, 1] bcast_S40000x1_S40000x128_0_1 (broadcastInDim S40000x1 ![0] bcast_S40000_S40000x1_0 sn)))) (broadcastInDim S40000x128 ![0, 1] bcast_S1x128_S40000x128_0_1 (broadcastInDim S1x128 ![1] bcast_S128_S1x128_1 b))) (broadcastInDim S40000x128 ![] bcast_S_S40000x128 (constant S_ .f32 0x00000000#32))) (broadcastInDim S40000x128 ![0, 1] bcast_S1x128_S40000x128_0_1 (broadcastInDim S1x128 ![1] bcast_S128_S1x128_1 m))) (broadcastInDim S40000x128 ![0, 1] bcast_S1x128_S40000x128_0_1 (broadcastInDim S1x128 ![1] bcast_S128_S1x128_1 (Host.rsqrt (addf v (broadcastInDim S128 ![] bcast_S_S128 (constant S_ .f32 0x3727C5AC#32))))))) (broadcastInDim S40000x128 ![0, 1] bcast_S1x128_S40000x128_0_1 (broadcastInDim S1x128 ![1] bcast_S128_S1x128_1 g))) (broadcastInDim S40000x128 ![0, 1] bcast_S1x128_S40000x128_0_1 (broadcastInDim S1x128 ![1] bcast_S128_S1x128_1 be))

/-- The readout: per-graph sums of the nodes' rows over the graphs' sizes, then the affine classifier. -/
def readout (h : (⟨S40000x128, .f32⟩ : BufTy).Contents (Elt F)) (x2 : (⟨S40000, .i32⟩ : BufTy).Contents (Elt F)) (x21 : (⟨S128x2, .f32⟩ : BufTy).Contents (Elt F)) (x22 : (⟨S2, .f32⟩ : BufTy).Contents (Elt F)) : (⟨S64x2, .f32⟩ : BufTy).Contents (Elt F) :=
  addf (Host.dotGeneral dot_S64x128_S128x2_S64x2_1_0_0_1_n_n none (Host.divf (Host.scatterAdd scatter_S64x128_S40000x1_S40000x128_1_0_0_1 (broadcastInDim S64x128 ![] bcast_S_S64x128 (constant S_ .f32 0x00000000#32)) (broadcastInDim S40000x1 ![0] bcast_S40000_S40000x1_0 x2) h) (broadcastInDim S64x128 ![0, 1] bcast_S64x1_S64x128_0_1 (broadcastInDim S64x1 ![0] bcast_S64_S64x1_0 (maximumf (Host.scatterAdd scatter_S64_S40000x1_S40000_n_0_0_1 (broadcastInDim S64 ![] bcast_S_S64 (constant S_ .f32 0x00000000#32)) (broadcastInDim S40000x1 ![0] bcast_S40000_S40000x1_0 x2) (broadcastInDim S40000 ![] bcast_S_S40000 (constant S_ .f32 0x3F800000#32))) (broadcastInDim S64 ![] bcast_S_S64 (constant S_ .f32 0x3F800000#32)))))) x21) (broadcastInDim S64x2 ![0, 1] bcast_S1x2_S64x2_0_1 (broadcastInDim S1x2 ![1] bcast_S2_S1x2_1 x22))

/-- The first layer's activations. -/
theorem v63_eq (x0 : (⟨S40000x512, .f32⟩ : BufTy).Contents (Elt F)) (x1 : (⟨S2x640000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) :
    val_main_v63 (F := F) x0 x1 x3 x4 x5 x6 x7 x8 = layer (val_main_v27 (F := F) x0 x3) (val_main_v25 (F := F) x1) (val_main_v26 (F := F) x1) (val_main_v33 (F := F) x1) (val_main_v39 (F := F) x1) x4 x5 x6 x7 x8 := rfl

/-- The second layer's activations. -/
theorem v100_eq (x0 : (⟨S40000x512, .f32⟩ : BufTy).Contents (Elt F)) (x1 : (⟨S2x640000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) :
    val_main_v100 (F := F) x0 x1 x3 x4 x5 x6 x7 x8 x9 x10 x11 x12 x13 x14 = layer (val_main_v64 (F := F) x0 x1 x3 x4 x5 x6 x7 x8 x9) (val_main_v25 (F := F) x1) (val_main_v26 (F := F) x1) (val_main_v33 (F := F) x1) (val_main_v39 (F := F) x1) x10 x11 x12 x13 x14 := rfl

/-- The third layer's activations. -/
theorem v137_eq (x0 : (⟨S40000x512, .f32⟩ : BufTy).Contents (Elt F)) (x1 : (⟨S2x640000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) :
    val_main_v137 (F := F) x0 x1 x3 x4 x5 x6 x7 x8 x9 x10 x11 x12 x13 x14 x15 x16 x17 x18 x19 x20 = layer (val_main_v101 (F := F) x0 x1 x3 x4 x5 x6 x7 x8 x9 x10 x11 x12 x13 x14 x15) (val_main_v25 (F := F) x1) (val_main_v26 (F := F) x1) (val_main_v33 (F := F) x1) (val_main_v39 (F := F) x1) x16 x17 x18 x19 x20 := rfl

/-- The returned array is the readout of the third layer's activations. -/
theorem v153_eq (x0 : (⟨S40000x512, .f32⟩ : BufTy).Contents (Elt F)) (x1 : (⟨S2x640000, .i32⟩ : BufTy).Contents (Elt F)) (x2 : (⟨S40000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x2, .f32⟩ : BufTy).Contents (Elt F)) (x22 : (⟨S2, .f32⟩ : BufTy).Contents (Elt F)) :
    val_main_v153 (F := F) x0 x1 x2 x3 x4 x5 x6 x7 x8 x9 x10 x11 x12 x13 x14 x15 x16 x17 x18 x19 x20 x21 x22 = readout (val_main_v137 (F := F) x0 x1 x3 x4 x5 x6 x7 x8 x9 x10 x11 x12 x13 x14 x15 x16 x17 x18 x19 x20) x2 x21 x22 := rfl

/-- The second and third layers' weighted features are plain matrix products of the activations before them. -/
theorem v64_eq (x0 : (⟨S40000x512, .f32⟩ : BufTy).Contents (Elt F)) (x1 : (⟨S2x640000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) :
    val_main_v64 (F := F) x0 x1 x3 x4 x5 x6 x7 x8 x9 = Host.dotGeneral dot_S40000x128_S128x128_S40000x128_1_0_0_1_n_n none (val_main_v63 (F := F) x0 x1 x3 x4 x5 x6 x7 x8) x9 := rfl

theorem v101_eq (x0 : (⟨S40000x512, .f32⟩ : BufTy).Contents (Elt F)) (x1 : (⟨S2x640000, .i32⟩ : BufTy).Contents (Elt F)) (x3 : (⟨S512x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) :
    val_main_v101 (F := F) x0 x1 x3 x4 x5 x6 x7 x8 x9 x10 x11 x12 x13 x14 x15 = Host.dotGeneral dot_S40000x128_S128x128_S40000x128_1_0_0_1_n_n none (val_main_v100 (F := F) x0 x1 x3 x4 x5 x6 x7 x8 x9 x10 x11 x12 x13 x14) x15 := rfl

theorem v27_eq (x0 : (⟨S40000x512, .f32⟩ : BufTy).Contents (Elt F)) (x3 : (⟨S512x128, .f32⟩ : BufTy).Contents (Elt F)) :
    val_main_v27 (F := F) x0 x3 = Host.dotGeneral dot_S40000x512_S512x128_S40000x128_1_0_0_1_n_n none x0 x3 := rfl

end Cert.ReferenceIdeal.RefValue

end
-- ==== Proof.LibVecGather.lean ====
/-
  A gather of single entries of a vector: operand [N], start indices an [E, 1] column of row words, result [E].

  Entry e of the result is the operand's entry at the e-th word, read signed and clamped into [0, N - 1] — the
  one-dimensional companion of a gather of whole rows.
-/
import Idealize.ShloMosaic.PureOps.Ideal
import Idealize.ShloMosaic.Lib.ValueIdx

noncomputable section

namespace Idealize.ShloMosaic.VecGather

open Idealize.ShloMosaic Idealize.ShloMosaic.ValueIdx

variable {N E w : Nat} {α : Type}

/-- The dimension numbers of a gather of single entries of a vector at a column of words. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the operand at the e-th word, read signed and clamped into [0, N - 1]. -/
theorem gather_vec_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.RefAt.lean ====
/-
  The reference's factors read at an entry.

  An edge's factor is the product of the inverse-root degrees at its two ends, each end's word counted from the end
  when negative and then clamped into the node range; a node's own factor is the square of its inverse-root degree.
  An edge whose destination word, read signed, is the index n of a node is not wrapped and not clamped: the
  factor it reads at its destination is node n's.
-/
import proofs.«120343_j70858370450156_2_alg».proof.Proof.RefLayer
import proofs.«120343_j70858370450156_2_alg».proof.Proof.LibRowOps
import proofs.«120343_j70858370450156_2_alg».proof.Proof.LibVecGather
import proofs.«120343_j70858370450156_2_alg».proof.Proof.LibBroadcastInDim
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- A node's own factor. -/
theorem sn_apply (x1 : (⟨S2x640000, .i32⟩ : BufTy).Contents (Elt Ideal)) (n : Fin 40000) :
    val_main_v26 (F := Ideal) x1 (ix1 n) = val_main_v10 (F := Ideal) x1 (ix1 n) * val_main_v10 (F := Ideal) x1 (ix1 n) := rfl

/-- An edge's factor. -/
theorem ne_apply (x1 : (⟨S2x640000, .i32⟩ : BufTy).Contents (Elt Ideal)) (e : Fin 640000) :
    val_main_v25 (F := Ideal) x1 (ix1 e)
      = val_main_v10 (F := Ideal) x1 (ix1 (RowOps.srcRow (N := 40000) (by decide) (val_main_v16 (F := Ideal) x1) e))
        * val_main_v10 (F := Ideal) x1 (ix1 (RowOps.srcRow (N := 40000) (by decide) (val_main_v23 (F := Ideal) x1) e)) := by
  show val_main_v17 (F := Ideal) x1 (ix1 e) * val_main_v24 (F := Ideal) x1 (ix1 e) = _
  refine congrArg₂ (· * ·) ?_ ?_
  · unfold val_main_v17
    rw [show gather_S40000_S640000x1_S640000_n_0_n_n_0_1_1
        = VecGather.vecGatherDims 40000 640000 gather_S40000_S640000x1_S640000_n_0_n_n_0_1_1_wf from rfl]
    exact VecGather.gather_vec_apply (by decide) _ _ _ e
  · unfold val_main_v24
    rw [show gather_S40000_S640000x1_S640000_n_0_n_n_0_1_1
        = VecGather.vecGatherDims 40000 640000 gather_S40000_S640000x1_S640000_n_0_n_n_0_1_1_wf from rfl]
    exact VecGather.gather_vec_apply (by decide) _ _ _ e

/-- A word that reads as a nonnegative number is not counted from the end. -/
theorem wrap_nonneg (w a : BitVec 32) (h : 0 ≤ w.toInt) : Scalar.select (IntOp.cmpi .slt w 0#32) a w = w := by
  have hs : w.slt 0#32 = false := by
    simp only [BitVec.slt, BitVec.toInt_zero, decide_eq_false_iff_not, not_lt]
    exact h
  simp [Scalar.select, IntOp.cmpi, hs]

/-- An edge that hits node n reads node n's factor at its destination. -/
theorem dst_hit (x1 : (⟨S2x640000, .i32⟩ : BufTy).Contents (Elt Ideal)) (e : Fin 640000) (n : Fin 40000)
    (h : (val_main_v39 (F := Ideal) x1 (ix2 e (0 : Fin 1))).toInt = (n.val : Int)) :
    RowOps.srcRow (N := 40000) (by decide) (val_main_v23 (F := Ideal) x1) e = n := by
  have h39 : val_main_v39 (F := Ideal) x1 (ix2 e (0 : Fin 1)) = val_main_v3 (F := Ideal) x1 (ix1 e) := by
    unfold val_main_v39; exact BroadcastInDimAt.vec_col_apply _ _ e 0
  have h23 : val_main_v23 (F := Ideal) x1 (ix2 e (0 : Fin 1)) = val_main_v22 (F := Ideal) x1 (ix1 e) := by
    unfold val_main_v23; exact BroadcastInDimAt.vec_col_apply _ _ e 0
  have h18 : val_main_v18 (F := Ideal) (ix1 e) = 0#32 := by
    unfold val_main_v18; exact (BroadcastInDimAt.scalar_apply _ _ _).trans rfl
  have h22 : val_main_v22 (F := Ideal) x1 (ix1 e) = val_main_v3 (F := Ideal) x1 (ix1 e) := by
    show Scalar.select (IntOp.cmpi .slt (val_main_v3 (F := Ideal) x1 (ix1 e)) (val_main_v18 (F := Ideal) (ix1 e)))
        (val_main_v21 (F := Ideal) x1 (ix1 e)) (val_main_v3 (F := Ideal) x1 (ix1 e)) = _
    rw [h18]
    refine wrap_nonneg _ _ ?_
    rw [← h39, h]; exact Int.natCast_nonneg _
  refine Fin.ext ?_
  show min (val_main_v23 (F := Ideal) x1 (ix2 e (0 : Fin 1))).toInt.toNat (40000 - 1) = n.val
  rw [h23, h22, ← h39, h]
  have hn : n.val < 40000 := n.isLt
  simp only [Int.toNat_natCast]
  omega

end Cert.ReferenceIdeal.RefValue

end
-- ==== Proof.Same.lean ====
/-
  The two programs share their preparation and their readout.

  The reference computes the edges' endpoints, the inverse-root degrees and the readout with the same operations,
  in the same order, as the host code around the kernel launches: as functions of the arguments they are the
  same functions.
-/
import proofs.«120343_j70858370450156_2_alg».proof.Proof.Host
import proofs.«120343_j70858370450156_2_alg».proof.Proof.RefLayer

noncomputable section

namespace Cert.Bridge

open Cert.ReferenceIdeal Cert.ReferenceIdeal.Read Cert.ReferenceIdeal.RefValue
open Cert.KernelIdeal.Val
open Idealize.ShloMosaic

/-- The inverse-root degrees. -/
theorem dinv_same (x1 : (⟨S2x640000, .i32⟩ : BufTy).Contents (Elt Ideal)) : val_main_v10 (F := Ideal) x1 = dinvOf x1 := rfl

/-- The source column of the factor gather. -/
theorem src16_same (x1 : (⟨S2x640000, .i32⟩ : BufTy).Contents (Elt Ideal)) : val_main_v16 (F := Ideal) x1 = srcCol (srcOf x1) := rfl

/-- The source column of the row gathers. -/
theorem src33_same (x1 : (⟨S2x640000, .i32⟩ : BufTy).Contents (Elt Ideal)) : val_main_v33 (F := Ideal) x1 = srcCol (srcOf x1) := rfl

/-- The destination column of the scatters. -/
theorem dst39_same (x1 : (⟨S2x640000, .i32⟩ : BufTy).Contents (Elt Ideal)) : val_main_v39 (F := Ideal) x1 = dstCol (dstOf x1) := rfl

/-- The readout. -/
theorem readout_same (h : (⟨S40000x128, .f32⟩ : BufTy).Contents (Elt Ideal)) (x2 : (⟨S40000, .i32⟩ : BufTy).Contents (Elt Ideal))
    (x21 : (⟨S128x2, .f32⟩ : BufTy).Contents (Elt Ideal)) (x22 : (⟨S2, .f32⟩ : BufTy).Contents (Elt Ideal)) :
    readout (F := Ideal) h x2 x21 x22 = tailOf h x2 x21 x22 := rfl

end Cert.Bridge

end
-- ==== Proof.Law.lean ====
/-
  The one law that joins the two arrangements of a layer.

  One program scales the features of node s by d s before they travel along an edge, sums what arrives at node n,
  adds n's own scaled features and scales the total by d n. The other scales each travelling row by the edge's
  factor d s * d n, sums, and adds n's own features times d n * d n. The two agree because multiplication by a
  nonnegative real distributes over every sum of extended reals, infinite summands included; commutativity and
  associativity of the product do the rest. Nothing is assumed of the features themselves.
-/
import Idealize.ShloMosaic.PureOps.Ideal

open scoped BigOperators

namespace Cert.Gcn.Law

/-- A nonnegative finite factor moves inside a finite sum of extended reals. -/
theorem mul_sum {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- THE LAYER LAW at one entry. hit e says edge e ends in the node; a e is the entry of the unscaled product at
    the edge's source, ds e the source's factor, dt e the factor the other program reads at the edge's end, which
    is d on the edges that hit; own is the node's own unscaled entry. -/
theorem pre_eq {ι : Type*} [Fintype ι] (d : EReal) (h0 : 0 ≤ d) (ht : d ≠ ⊤) (hit : ι → Prop) [DecidablePred hit]
    (a ds dt : ι → EReal) (hdt : ∀ e, hit e → dt e = d) (own b : EReal) :
    d * (((0 : EReal) + ∑ e, if hit e then a e * ds e else 0) + own * d) + b
      = (((0 : EReal) + ∑ e, if hit e then a e * (ds e * dt e) else 0) + own * (d * d)) + b := by
  rw [zero_add, zero_add, EReal.left_distrib_of_nonneg_of_ne_top h0 ht, mul_sum _ d h0 ht]
  congr 2
  · refine Finset.sum_congr rfl fun e _ => ?_
    by_cases h : hit e
    · rw [if_pos h, if_pos h, hdt e h, mul_comm d, mul_assoc]
    · rw [if_neg h, if_neg h, mul_zero]
  · rw [mul_left_comm]

end Cert.Gcn.Law
-- ==== Proof.BridgePre.lean ====
/-
  A layer's pre-activations agree.

  Suppose the kernel program's scaled product H of a layer is, entry by entry, the reference's weighted features hw
  times the node's factor d n. The kernel program then forms d n (sum over the edges into n of H at the source, plus
  H at n) + b; the reference forms (sum over the edges into n of hw at the source times d source times d n) plus hw at
  n times d n squared, plus b. Since d n is a nonnegative real it distributes over the sums, and the two agree.
-/
import proofs.«120343_j70858370450156_2_alg».proof.Proof.KAt
import proofs.«120343_j70858370450156_2_alg».proof.Proof.RefAt
import proofs.«120343_j70858370450156_2_alg».proof.Proof.Same
import proofs.«120343_j70858370450156_2_alg».proof.Proof.Law
import proofs.«120343_j70858370450156_2_alg».proof.Proof.Spec

noncomputable section

open scoped BigOperators

namespace Cert.Bridge

open Cert.ReferenceIdeal Cert.ReferenceIdeal.Read Cert.ReferenceIdeal.RefValue
open Cert.KernelIdeal.Val
open Idealize.ShloMosaic Idealize.ShloMosaic.ValueIdx
open Cert.Gcn

/-- THE PRE-ACTIVATIONS at (n, k), under the invariant H = hw d. -/
theorem pre_step (x1 : (⟨S2x640000, .i32⟩ : BufTy).Contents (Elt Ideal)) (H hw : (⟨S40000x128, .f32⟩ : BufTy).Contents (Elt Ideal))
    (hinv : ∀ (p : Fin 40000) (q : Fin 128), H (ix2 p q) = hw (ix2 p q) * dinvOf x1 (ix1 p))
    (b : (⟨S128, .f32⟩ : BufTy).Contents (Elt Ideal)) (n : Fin 40000) (k : Fin 128) :
    dinvColOf x1 (ix2 n (0 : Fin 1)) * (aggOf H (srcOf x1) (dstOf x1) (ix2 n k) + H (ix2 n k)) + b (ix1 k)
      = ((Ideal.ofBits .f32 0x00000000#32
            + ∑ e : Fin 640000, if (val_main_v39 (F := Ideal) x1 (ix2 e (0 : Fin 1))).toInt = (n.val : Int)
                then hw (ix2 (RowOps.srcRow (N := 40000) (by decide) (val_main_v33 (F := Ideal) x1) e) k)
                  * val_main_v25 (F := Ideal) x1 (ix1 e) else 0)
          + hw (ix2 n k) * val_main_v26 (F := Ideal) x1 (ix1 n)) + b (ix1 k) := by
  obtain ⟨h0, ht⟩ := dinvOf_nonneg x1 n
  have key := Law.pre_eq (dinvOf x1 (ix1 n)) h0 ht
    (fun e : Fin 640000 => (val_main_v39 (F := Ideal) x1 (ix2 e (0 : Fin 1))).toInt = (n.val : Int))
    (fun e => hw (ix2 (RowOps.srcRow (N := 40000) (by decide) (val_main_v33 (F := Ideal) x1) e) k))
    (fun e => dinvOf x1 (ix1 (RowOps.srcRow (N := 40000) (by decide) (val_main_v33 (F := Ideal) x1) e)))
    (fun e => dinvOf x1 (ix1 (RowOps.srcRow (N := 40000) (by decide) (val_main_v23 (F := Ideal) x1) e)))
    (fun e he => by rw [dst_hit x1 e n he]) (hw (ix2 n k)) (b (ix1 k))
  rw [aggOf_apply, dinvColOf_apply, Ideal.ofBits_zero_f32, sn_apply, dinv_same]
  simp only [hinv]
  refine key.trans ?_
  simp only [ne_apply]
  rfl

end Cert.Bridge

end
-- ==== Proof.RefLayerAt.lean ====
/-
  The reference's layer read at one entry. Entry (n, k) of a layer's result is the rectified and normalised value of
  the zero word's value plus the sum, over the edges e whose destination word read signed is n, of entry k of the
  source row of e (its source word read signed and clamped into the rows) times edge e's factor, plus entry (n, k) of
  the weighted features times node n's factor, plus the bias of column k; the normalisation uses column k's mean,
  variance, scale and shift. Each operation of the composition is read at the index: the pointwise ones entry by
  entry, the broadcasts at the coordinates they keep, the gather at its source row, and the accumulating scatter as
  the operand's entry plus the sum over the update rows that land on row n.
-/
import proofs.«120343_j70858370450156_2_alg».proof.Proof.RefLayer
import proofs.«120343_j70858370450156_2_alg».proof.Proof.Spec
import proofs.«120343_j70858370450156_2_alg».proof.Proof.LibRowOps
import proofs.«120343_j70858370450156_2_alg».proof.Proof.LibBroadcastInDim
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

namespace LayerAt

/-- The zero array: every entry is the zero word's value. -/
theorem zeros_apply (n : Fin 40000) (k : Fin 128) :
    broadcastInDim S40000x128 ![] bcast_S_S40000x128 (constant (F := Ideal) S_ .f32 0x00000000#32) (ix2 n k)
      = Ideal.ofBits .f32 0x00000000#32 := by
  rw [BroadcastInDimAt.scalar_apply]
  rfl

/-- A vector of 128 numbers placed as one row and repeated down the 40000 rows reads its entry k in column k. -/
theorem row_apply (x : (⟨S128, .f32⟩ : BufTy).Contents (Elt Ideal)) (n : Fin 40000) (k : Fin 128) :
    broadcastInDim S40000x128 ![0, 1] bcast_S1x128_S40000x128_0_1 (broadcastInDim S1x128 ![1] bcast_S128_S1x128_1 x) (ix2 n k)
      = x (ix1 k) :=
  (BroadcastInDimAt.row_mat_apply _ bcast_S1x128_S40000x128_0_1 n k).trans
    (BroadcastInDimAt.vec_row_apply x bcast_S128_S1x128_1 0 k)

/-- The nodes' factors placed as a column and repeated across the 128 columns read the factor of node n in row n. -/
theorem node_col_apply (sn : (⟨S40000, .f32⟩ : BufTy).Contents (Elt Ideal)) (n : Fin 40000) (k : Fin 128) :
    broadcastInDim S40000x128 ![0, 1] bcast_S40000x1_S40000x128_0_1 (broadcastInDim S40000x1 ![0] bcast_S40000_S40000x1_0 sn) (ix2 n k)
      = sn (ix1 n) :=
  (BroadcastInDimAt.col_mat_apply _ bcast_S40000x1_S40000x128_0_1 n k).trans
    (BroadcastInDimAt.vec_col_apply sn bcast_S40000_S40000x1_0 n 0)

/-- The edges' factors placed as a column and repeated across the 128 columns read the factor of edge e in row e. -/
theorem edge_col_apply (ne : (⟨S640000, .f32⟩ : BufTy).Contents (Elt Ideal)) (e : Fin 640000) (k : Fin 128) :
    broadcastInDim S640000x128 ![0, 1] bcast_S640000x1_S640000x128_0_1 (broadcastInDim S640000x1 ![0] bcast_S640000_S640000x1_0 ne) (ix2 e k)
      = ne (ix1 e) :=
  (BroadcastInDimAt.col_mat_apply _ bcast_S640000x1_S640000x128_0_1 e k).trans
    (BroadcastInDimAt.vec_col_apply ne bcast_S640000_S640000x1_0 e 0)

/-- The inverse square root of the variance plus the offset, at entry k. -/
theorem rsqrt_apply (v : (⟨S128, .f32⟩ : BufTy).Contents (Elt Ideal)) (k : Fin 128) :
    Host.rsqrt (addf v (broadcastInDim S128 ![] bcast_S_S128 (constant (F := Ideal) S_ .f32 0x3727C5AC#32))) (ix1 k)
      = Ideal.rsqrt (v (ix1 k) + Cert.Gcn.epsBN) := by
  show Ideal.rsqrt (v (ix1 k) + broadcastInDim S128 ![] bcast_S_S128 (constant (F := Ideal) S_ .f32 0x3727C5AC#32) (ix1 k)) = _
  rw [BroadcastInDimAt.scalar_apply]
  rfl

/-- Row e of the gathered rows, scaled by edge e's factor, at column k. -/
theorem msg_apply (hw : (⟨S40000x128, .f32⟩ : BufTy).Contents (Elt Ideal)) (ne : (⟨S640000, .f32⟩ : BufTy).Contents (Elt Ideal))
    (srcC : (⟨S640000x1, .i32⟩ : BufTy).Contents (Elt Ideal)) (e : Fin 640000) (k : Fin 128) :
    (mulf (F := Ideal) (Host.gather gather_S40000x128_S640000x1_S640000x128_1_0_n_n_0_1_1128 hw srcC)
        (broadcastInDim S640000x128 ![0, 1] bcast_S640000x1_S640000x128_0_1 (broadcastInDim S640000x1 ![0] bcast_S640000_S640000x1_0 ne))
      : FVec Ideal S640000x128 .f32) (ix2 e k)
      = hw (ix2 (RowOps.srcRow (N := 40000) (by decide) srcC e) k) * ne (ix1 e) := by
  rw [mulf_apply, edge_col_apply]
  refine congrArg (· * ne (ix1 e)) ?_
  exact RowOps.gather_rows_apply (N := 40000) (E := 640000) (C := 128) (by decide) _ hw srcC e k

/-- The rows added in at their destinations: entry (n, k) of the result is the operand's entry plus the sum, over the
    edges whose destination word read signed is n, of the update's entry (e, k). -/
theorem scatter_apply (x : FVec Ideal S40000x128 .f32) (dstC : (⟨S640000x1, .i32⟩ : BufTy).Contents (Elt Ideal))
    (upd : FVec Ideal S640000x128 .f32) (n : Fin 40000) (k : Fin 128) :
    Host.scatterAdd (F := Ideal) scatter_S40000x128_S640000x1_S640000x128_1_0_0_1 x dstC upd (ix2 n k)
      = x (ix2 n k) + ∑ e : Fin 640000, if (dstC (ix2 e (0 : Fin 1))).toInt = (n.val : Int) then upd (ix2 e k) else 0 :=
  RowOps.scatterAdd_rows_apply (N := 40000) (E := 640000) (C := 128)
    scatter_S40000x128_S640000x1_S640000x128_1_0_0_1.wf dstC x upd n k

/-- The scaled gathered rows added in at their destinations, at entry (n, k). -/
theorem scatter_msg_apply (x : FVec Ideal S40000x128 .f32) (hw : (⟨S40000x128, .f32⟩ : BufTy).Contents (Elt Ideal))
    (ne : (⟨S640000, .f32⟩ : BufTy).Contents (Elt Ideal)) (srcC dstC : (⟨S640000x1, .i32⟩ : BufTy).Contents (Elt Ideal))
    (n : Fin 40000) (k : Fin 128) :
    Host.scatterAdd (F := Ideal) scatter_S40000x128_S640000x1_S640000x128_1_0_0_1 x dstC
        (mulf (F := Ideal) (Host.gather gather_S40000x128_S640000x1_S640000x128_1_0_n_n_0_1_1128 hw srcC)
          (broadcastInDim S640000x128 ![0, 1] bcast_S640000x1_S640000x128_0_1 (broadcastInDim S640000x1 ![0] bcast_S640000_S640000x1_0 ne)))
        (ix2 n k)
      = x (ix2 n k) + ∑ e : Fin 640000, if (dstC (ix2 e (0 : Fin 1))).toInt = (n.val : Int)
          then hw (ix2 (RowOps.srcRow (N := 40000) (by decide) srcC e) k) * ne (ix1 e) else 0 :=
  (scatter_apply x dstC _ n k).trans
    (congrArg (x (ix2 n k) + ·) (Finset.sum_congr rfl fun e _ => by rw [msg_apply hw ne srcC e k]))

end LayerAt

theorem layer_apply (hw : (⟨S40000x128, .f32⟩ : BufTy).Contents (Elt Ideal)) (ne : (⟨S640000, .f32⟩ : BufTy).Contents (Elt Ideal)) (sn : (⟨S40000, .f32⟩ : BufTy).Contents (Elt Ideal))
    (srcC dstC : (⟨S640000x1, .i32⟩ : BufTy).Contents (Elt Ideal)) (b g be m v : (⟨S128, .f32⟩ : BufTy).Contents (Elt Ideal)) (n : Fin 40000) (k : Fin 128) :
    layer (F := Ideal) hw ne sn srcC dstC b g be m v (ix2 n k)
      = Cert.Gcn.act
          (((Ideal.ofBits .f32 0x00000000#32
              + ∑ e : Fin 640000, if (dstC (ix2 e (0 : Fin 1))).toInt = (n.val : Int)
                  then hw (ix2 (RowOps.srcRow (N := 40000) (by decide) srcC e) k) * ne (ix1 e) else 0)
            + hw (ix2 n k) * sn (ix1 n))
           + b (ix1 k))
          (m (ix1 k)) (v (ix1 k)) (g (ix1 k)) (be (ix1 k)) := by
  unfold layer Cert.Gcn.act
  rw [addf_apply, mulf_apply, mulf_apply, subf_apply, maximumf_apply, addf_apply, addf_apply, mulf_apply]
  rw [LayerAt.row_apply, LayerAt.row_apply, LayerAt.row_apply, LayerAt.row_apply, LayerAt.row_apply,
    LayerAt.rsqrt_apply, LayerAt.node_col_apply, LayerAt.scatter_msg_apply, LayerAt.zeros_apply]

end Cert.ReferenceIdeal.RefValue
end
-- ==== Proof.Bridge.lean ====
/-
  The two programs compute the same array.

  The invariant carried through the layers: the kernel program's scaled product of a layer is the reference's
  weighted features times the node's factor, entry by entry. It holds for the first layer by the definitions. Under
  it a layer's pre-activations agree (the distributive law), hence its activations (the same rectifier and
  normalisation applied to equal numbers), hence the next layer's weighted features (the same matrix product of
  equal activations), which the kernel program scales by the node's factor again: the invariant for the next layer.
  After the third layer the activations agree, and both programs read them out with the same operations.
-/
import proofs.«120343_j70858370450156_2_alg».proof.Proof.BridgePre
import proofs.«120343_j70858370450156_2_alg».proof.Proof.KValue
import proofs.«120343_j70858370450156_2_alg».proof.Proof.RefLayerAt
import proofs.«120343_j70858370450156_2_alg».proof.Proof.LibPlainDot

noncomputable section

open scoped BigOperators

namespace Cert.Bridge

open Cert.ReferenceIdeal Cert.ReferenceIdeal.Read Cert.ReferenceIdeal.RefValue
open Cert.KernelIdeal.Val
open Idealize.ShloMosaic Idealize.ShloMosaic.ValueIdx
open Cert.Gcn

/-- Under the invariant a layer's activations agree, entry by entry. -/
theorem act_step (x1 : (⟨S2x640000, .i32⟩ : BufTy).Contents (Elt Ideal)) (H hw : (⟨S40000x128, .f32⟩ : BufTy).Contents (Elt Ideal))
    (hinv : ∀ (p : Fin 40000) (q : Fin 128), H (ix2 p q) = hw (ix2 p q) * dinvOf x1 (ix1 p))
    (b g be m v : (⟨S128, .f32⟩ : BufTy).Contents (Elt Ideal)) (n : Fin 40000) (k : Fin 128) :
    epilogueC (aggOf H (srcOf x1) (dstOf x1)) H (dinvColOf x1) b g be m v n k
      = layer (F := Ideal) (hw) (val_main_v25 (F := Ideal) x1) (val_main_v26 (F := Ideal) x1) (val_main_v33 (F := Ideal) x1) (val_main_v39 (F := Ideal) x1) b g be m v (ix2 n k) := by
  rw [layer_apply]
  unfold epilogueC
  exact congrArg (fun p => act p (m (ix1 k)) (v (ix1 k)) (g (ix1 k)) (be (ix1 k))) (pre_step x1 H hw hinv b n k)

/-- Under the invariant the next layer's scaled product is the next weighted features times the node's factor. -/
theorem inv_step (x1 : (⟨S2x640000, .i32⟩ : BufTy).Contents (Elt Ideal)) (H hw : (⟨S40000x128, .f32⟩ : BufTy).Contents (Elt Ideal))
    (hinv : ∀ (p : Fin 40000) (q : Fin 128), H (ix2 p q) = hw (ix2 p q) * dinvOf x1 (ix1 p))
    (b g be m v : (⟨S128, .f32⟩ : BufTy).Contents (Elt Ideal))
    (W : (⟨S128x128, .f32⟩ : BufTy).Contents (Elt Ideal)) (n : Fin 40000) (j : Fin 128) :
    fused (aggOf H (srcOf x1) (dstOf x1)) H (dinvColOf x1) b g be m v W (ix2 n j)
      = Host.dotGeneral (F := Ideal) (φ₁ := .f32) (φ₂ := .f32) dot_S40000x128_S128x128_S40000x128_1_0_0_1_n_n none
          (layer (F := Ideal) (hw) (val_main_v25 (F := Ideal) x1) (val_main_v26 (F := Ideal) x1) (val_main_v33 (F := Ideal) x1) (val_main_v39 (F := Ideal) x1) b g be m v) W (ix2 n j) * dinvOf x1 (ix1 n) := by
  rw [fused_ix2]
  unfold fusedC
  rw [dinvColOf_apply, show dot_S40000x128_S128x128_S40000x128_1_0_0_1_n_n = DotDims.plain 40000 128 128 from rfl,
    PlainDot.dotGeneral_apply]
  refine congrArg (· * dinvOf x1 (ix1 n)) (Finset.sum_congr rfl fun k _ => ?_)
  rw [act_step x1 H hw hinv b g be m v n k]

/-- The invariant for the first layer. -/
theorem inv1 (x0 : (⟨S40000x512, .f32⟩ : BufTy).Contents (Elt Ideal)) (x1 : (⟨S2x640000, .i32⟩ : BufTy).Contents (Elt Ideal)) (x3 : (⟨S512x128, .f32⟩ : BufTy).Contents (Elt Ideal)) (n : Fin 40000) (j : Fin 128) :
    hws1 x0 x1 x3 (ix2 n j) = val_main_v27 (F := Ideal) x0 x3 (ix2 n j) * dinvOf x1 (ix1 n) := by
  unfold hws1
  rw [scaledProduct_ix2]
  unfold scaledProductC
  rw [dinvColOf_apply, v27_eq, show dot_S40000x512_S512x128_S40000x128_1_0_0_1_n_n = DotDims.plain 40000 512 128 from rfl,
    PlainDot.dotGeneral_apply]

/-- The invariant for the second layer. -/
theorem inv2 (x0 : (⟨S40000x512, .f32⟩ : BufTy).Contents (Elt Ideal)) (x1 : (⟨S2x640000, .i32⟩ : BufTy).Contents (Elt Ideal)) (x3 : (⟨S512x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (n : Fin 40000) (j : Fin 128) :
    hws2 x0 x1 x3 x4 x5 x6 x7 x8 x9 (ix2 n j) = val_main_v64 (F := Ideal) x0 x1 x3 x4 x5 x6 x7 x8 x9 (ix2 n j) * dinvOf x1 (ix1 n) := by
  unfold hws2
  rw [v64_eq, v63_eq]
  exact inv_step x1 _ _ (inv1 x0 x1 x3) x4 x5 x6 x7 x8 x9 n j

/-- The invariant for the third layer. -/
theorem inv3 (x0 : (⟨S40000x512, .f32⟩ : BufTy).Contents (Elt Ideal)) (x1 : (⟨S2x640000, .i32⟩ : BufTy).Contents (Elt Ideal)) (x3 : (⟨S512x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (n : Fin 40000) (j : Fin 128) :
    hws3 x0 x1 x3 x4 x5 x6 x7 x8 x9 x10 x11 x12 x13 x14 x15 (ix2 n j) = val_main_v101 (F := Ideal) x0 x1 x3 x4 x5 x6 x7 x8 x9 x10 x11 x12 x13 x14 x15 (ix2 n j) * dinvOf x1 (ix1 n) := by
  unfold hws3
  rw [v101_eq, v100_eq]
  exact inv_step x1 _ _ (inv2 x0 x1 x3 x4 x5 x6 x7 x8 x9) x10 x11 x12 x13 x14 x15 n j

/-- The third layer's activations agree. -/
theorem acts_eq (x0 : (⟨S40000x512, .f32⟩ : BufTy).Contents (Elt Ideal)) (x1 : (⟨S2x640000, .i32⟩ : BufTy).Contents (Elt Ideal)) (x3 : (⟨S512x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) :
    acts3 x0 x1 x3 x4 x5 x6 x7 x8 x9 x10 x11 x12 x13 x14 x15 x16 x17 x18 x19 x20 = val_main_v137 (F := Ideal) x0 x1 x3 x4 x5 x6 x7 x8 x9 x10 x11 x12 x13 x14 x15 x16 x17 x18 x19 x20 := by
  funext i
  obtain ⟨n, k, rfl⟩ : ∃ (n : Fin 40000) (k : Fin 128), i = ix2 n k := ⟨i 0, i 1, eq_ix2 i⟩
  unfold acts3
  rw [epilogue_ix2, v137_eq]
  exact act_step x1 _ _ (inv3 x0 x1 x3 x4 x5 x6 x7 x8 x9 x10 x11 x12 x13 x14 x15) x16 x17 x18 x19 x20 n k

/-- THE TWO RESULTS ARE ONE FUNCTION OF THE ARGUMENTS. -/
theorem kernel_eq_reference (x0 : (⟨S40000x512, .f32⟩ : BufTy).Contents (Elt Ideal)) (x1 : (⟨S2x640000, .i32⟩ : BufTy).Contents (Elt Ideal)) (x2 : (⟨S40000, .i32⟩ : BufTy).Contents (Elt Ideal)) (x3 : (⟨S512x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) (x21 : (⟨S128x2, .f32⟩ : BufTy).Contents (Elt Ideal)) (x22 : (⟨S2, .f32⟩ : BufTy).Contents (Elt Ideal)) :
    kernelOut x0 x1 x2 x3 x4 x5 x6 x7 x8 x9 x10 x11 x12 x13 x14 x15 x16 x17 x18 x19 x20 x21 x22 = val_main_v153 (F := Ideal) x0 x1 x2 x3 x4 x5 x6 x7 x8 x9 x10 x11 x12 x13 x14 x15 x16 x17 x18 x19 x20 x21 x22 := by
  unfold kernelOut
  rw [v153_eq, readout_same, acts_eq]

end Cert.Bridge

end
-- ==== Proof.lean ====
/-
  A three-layer graph convolution network with mean pooling and a linear classifier, computed two ways.

  The kernel program scales the weighted features of every node by d n = (1 + number of edges into n)^(-1/2) inside
  the kernels, sums the scaled rows along the edges on the host, and scales by d n once more in the next kernel.
  The reference scales every travelling row by the edge's factor d source * d destination and the node's own row by
  d n squared. At the ideal instance (floats are extended reals, operations exact, changes of float format the
  identity) the two agree because d n is a nonnegative real, which distributes over every sum of extended reals
  whatever the features are: the precondition is never opened.

  The frames of the two kernel programs are the launches over their nine segments; the reference's frame is its run
  with the result dropped. The kernel program's returned array is read off the same launch, the reference's off its
  run, and the two are one function of the arguments.
-/
import proofs.«120343_j70858370450156_2_alg».proof.Defs
import proofs.«120343_j70858370450156_2_alg».proof.Proof.Gen.Kernel
import proofs.«120343_j70858370450156_2_alg».proof.Proof.Gen.Kernel.Skeleton
import proofs.«120343_j70858370450156_2_alg».proof.Proof.Gen.Kernel.Launch
import proofs.«120343_j70858370450156_2_alg».proof.Proof.Gen.Kernel.Points
import proofs.«120343_j70858370450156_2_alg».proof.Proof.Gen.Kernel.Frame
import proofs.«120343_j70858370450156_2_alg».proof.Proof.Gen.KernelIdeal
import proofs.«120343_j70858370450156_2_alg».proof.Proof.Gen.KernelIdeal.Skeleton
import proofs.«120343_j70858370450156_2_alg».proof.Proof.Gen.KernelIdeal.Launch
import proofs.«120343_j70858370450156_2_alg».proof.Proof.Gen.KernelIdeal.Points
import proofs.«120343_j70858370450156_2_alg».proof.Proof.Gen.KernelIdeal.Frame
import proofs.«120343_j70858370450156_2_alg».proof.Proof.Gen.ReferenceIdeal
import proofs.«120343_j70858370450156_2_alg».proof.Proof.Gen.Pre_finite_inputs
import proofs.«120343_j70858370450156_2_alg».proof.Proof.Gen.ReferenceIdeal.Run
import proofs.«120343_j70858370450156_2_alg».proof.Proof.Gen.ReferenceIdeal.Read
import proofs.«120343_j70858370450156_2_alg».proof.Proof.RunResult
import proofs.«120343_j70858370450156_2_alg».proof.Proof.KValue
import proofs.«120343_j70858370450156_2_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1600000 in
/-- From memories that agree on the arguments both programs end with the same array. -/
theorem algebraic : Cert.algebraic_KernelIdeal_ReferenceIdeal := by
  intro m ρ m' ρ' _ hagree
  refine ⟨fun c => Cert.KernelIdeal.Val.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Val.W9_v64_val m ρ c), (h c).2⟩)
      (Cert.KernelIdeal.Val.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    simp only [Cert.ReferenceIdeal.Read.val_main_v153_eq, e0, e1, e2, e3, e4, e5, e6, e7, e8, e9, e10, e11, e12, e13, e14, e15, e16, e17, e18, e19, e20, e21, e22]
    exact (Cert.Bridge.kernel_eq_reference _ _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
